-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x768x2 : Shape := ⟨4, ![16, 768, 768, 2]⟩
abbrev S16x768x768 : Shape := ⟨3, ![16, 768, 768]⟩
abbrev S_ : Shape := ⟨0, ![]⟩

class Facts : Prop where
  bcast_S_S16x768x768x2 : S_.BroadcastsInDim S16x768x768x2 (![] : Fin 0 → Fin S16x768x768x2.rank)
  reducesTo_S16x768x768x2_S_d0_1_2_3 : S16x768x768x2.ReducesTo [0, 1, 2, 3] S_
  h_S_ : 0 < S_.numel
  bcast_S_S16x768x768 : S_.BroadcastsInDim S16x768x768 (![] : Fin 0 → Fin S16x768x768.rank)
  reducesTo_S16x768x768_S_d0_1_2 : S16x768x768.ReducesTo [0, 1, 2] S_

variable [Facts]

def fn {F : FTy → Type} [FloatOps F] (main_arg0 : FVec F S16x768x768x2 .f32) (main_arg1 : FVec F S16x768x768 .f32) (main_arg2 : FVec F S16x768x768 .f32) : IVec S_ 1 :=
  let main_v0 : FVec F S16x768x768x2 .f32 := Host.absf main_arg0
  let main_cst : FVec F S_ .f32 := constant S_ .f32 0x7F800000#32
  let main_v1 : FVec F S16x768x768x2 .f32 := broadcastInDim S16x768x768x2 ![] bcast_S_S16x768x768x2 main_cst
  let main_v2 : IVec S16x768x768x2 1 := cmpf .olt main_v0 main_v1
  let main_c : IVec S_ 1 := constantI S_ 1 1#1
  let main_v3 : IVec S_ 1 := (fun x v => Host.reduce IntOp.andi x v reducesTo_S16x768x768x2_S_d0_1_2_3 h_S_) main_v2 main_c
  let main_v4 : FVec F S16x768x768 .f32 := Host.absf main_arg1
  let main_cst_0 : FVec F S_ .f32 := constant S_ .f32 0x7F800000#32
  let main_v5 : FVec F S16x768x768 .f32 := broadcastInDim S16x768x768 ![] bcast_S_S16x768x768 main_cst_0
  let main_v6 : IVec S16x768x768 1 := cmpf .olt main_v4 main_v5
  let main_c_1 : IVec S_ 1 := constantI S_ 1 1#1
  let main_v7 : IVec S_ 1 := (fun x v => Host.reduce IntOp.andi x v reducesTo_S16x768x768_S_d0_1_2 h_S_) main_v6 main_c_1
  let main_v8 : IVec S_ 1 := andi main_v3 main_v7
  let main_v9 : FVec F S16x768x768 .f32 := Host.absf main_arg2
  let main_cst_2 : FVec F S_ .f32 := constant S_ .f32 0x7F800000#32
  let main_v10 : FVec F S16x768x768 .f32 := broadcastInDim S16x768x768 ![] bcast_S_S16x768x768 main_cst_2
  let main_v11 : IVec S16x768x768 1 := cmpf .olt main_v9 main_v10
  let main_c_3 : IVec S_ 1 := constantI S_ 1 1#1
  let main_v12 : IVec S_ 1 := (fun x v => Host.reduce IntOp.andi x v reducesTo_S16x768x768_S_d0_1_2 h_S_) main_v11 main_c_3
  let main_v13 : IVec S_ 1 := andi main_v8 main_v12
  main_v13
-- ==== Kernel.lean ====
abbrev S16x768x768x2 : Shape := ⟨4, ![16, 768, 768, 2]⟩
abbrev S16x768x768 : Shape := ⟨3, ![16, 768, 768]⟩
abbrev S16x768x768x1 : Shape := ⟨4, ![16, 768, 768, 1]⟩
abbrev S8x128 : Shape := ⟨2, ![8, 128]⟩
abbrev S1x256x768 : Shape := ⟨3, ![1, 256, 768]⟩
abbrev S256x768 : Shape := ⟨2, ![256, 768]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 33
  | .vmem => 9
  | .smem => 0
  | _ => 0

abbrev bufTy : (tb : Table) → Fin (tcTables nBuf tb) → BufTy
  | .hbm, ⟨0, _⟩ => ⟨S16x768x768x2, .f32⟩
  | .hbm, ⟨1, _⟩ => ⟨S16x768x768, .f32⟩
  | .hbm, ⟨2, _⟩ => ⟨S16x768x768, .f32⟩
  | .hbm, ⟨3, _⟩ => ⟨S16x768x768x1, .f32⟩
  | .hbm, ⟨4, _⟩ => ⟨S16x768x768, .f32⟩
  | .hbm, ⟨5, _⟩ => ⟨S16x768x768x1, .f32⟩
  | .hbm, ⟨6, _⟩ => ⟨S16x768x768, .f32⟩
  | .hbm, ⟨7, _⟩ => ⟨S8x128, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S8x128, .f32⟩
  | _, _ => ⟨S16x768x768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  slices_S16x768x768x2_S16x768x768x1_0_0_0_0 : S16x768x768x2.Slices ![0, 0, 0, 0] S16x768x768x1
  shapeCasts_S16x768x768x1_S16x768x768 : S16x768x768x1.ShapeCasts S16x768x768
  slices_S16x768x768x2_S16x768x768x1_0_0_0_1 : S16x768x768x2.Slices ![0, 0, 0, 1] S16x768x768x1
  inb_S8x128_S8x128_0_0 : ∀ a, (![0, 0] : Fin 2 → Nat) a + S8x128.size a ≤ S8x128.size a
  h_S8x128 : 0 < S8x128.numel
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S256x768_S1x256x768 : S256x768.ShapeCasts S1x256x768
  reduces_S1x256x768_S1 : S1x256x768.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  iota_S8x128_d0_w32 : S8x128.Iotas .tc 32 [0]
  shapeCasts_S1x1_S1x1 : S1x1.ShapeCasts S1x1
  broadcasts_S1x1_S8x128 : S1x1.Broadcasts S8x128
  shapeCasts_S8x128_S8x128 : S8x128.ShapeCasts S8x128
  slices_S8x128_S1x1_0_0 : S8x128.Slices ![0, 0] S1x1
  shapeCasts_S1x1_S_ : S1x1.ShapeCasts S_
  slices_S8x128_S1x1_1_0 : S8x128.Slices ![1, 0] S1x1
  slices_S8x128_S1x1_2_0 : S8x128.Slices ![2, 0] S1x1
  slices_S8x128_S1x1_3_0 : S8x128.Slices ![3, 0] S1x1
  slices_S8x128_S1x1_4_0 : S8x128.Slices ![4, 0] S1x1
  slices_S8x128_S1x1_5_0 : S8x128.Slices ![5, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S16x768x768.size a
  hwx0_0 : ∀ i : grid0.Coords, EltTy.bits .f32 = 32 ∨ (Rect.block (s := S16x768x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S16x768x768.size a
  hwx0_1 : ∀ i : grid0.Coords, EltTy.bits .f32 = 32 ∨ (Rect.block (s := S16x768x768) S1x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x768.size a ≤ S16x768x768.size a
  hwx0_2 : ∀ i : grid0.Coords, EltTy.bits .f32 = 32 ∨ (Rect.block (s := S16x768x768) S1x256x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x768.size a ≤ S16x768x768.size a
  hwx0_3 : ∀ i : grid0.Coords, EltTy.bits .f32 = 32 ∨ (Rect.block (s := S16x768x768) S1x256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)

variable [Facts₀]

abbrev win0_0 : Pipeline.Window sig grid0 :=
  Pipeline.Window.ofSpec (Memref.whole main_v1) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x768x768x2 : Shape := ⟨4, ![16, 768, 768, 2]⟩
abbrev S16x768x768 : Shape := ⟨3, ![16, 768, 768]⟩
abbrev S9437184x2 : Shape := ⟨2, ![9437184, 2]⟩
abbrev S9437184x1 : Shape := ⟨2, ![9437184, 1]⟩
abbrev S9437184 : Shape := ⟨1, ![9437184]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S16x768x768x2, .f32⟩
  | .hbm, ⟨1, _⟩ => ⟨S16x768x768, .f32⟩
  | .hbm, ⟨2, _⟩ => ⟨S16x768x768, .f32⟩
  | .hbm, ⟨3, _⟩ => ⟨S9437184x2, .f32⟩
  | .hbm, ⟨4, _⟩ => ⟨S9437184x1, .f32⟩
  | .hbm, ⟨5, _⟩ => ⟨S9437184, .f32⟩
  | .hbm, ⟨6, _⟩ => ⟨S9437184x1, .f32⟩
  | .hbm, ⟨7, _⟩ => ⟨S9437184, .f32⟩
  | .hbm, ⟨8, _⟩ => ⟨S9437184, .f32⟩
  | .hbm, ⟨9, _⟩ => ⟨S9437184, .f32⟩
  | .hbm, ⟨10, _⟩ => ⟨S9437184, .f32⟩
  | .hbm, ⟨11, _⟩ => ⟨S9437184, .f32⟩
  | .hbm, ⟨12, _⟩ => ⟨S_, .f32⟩
  | .hbm, ⟨13, _⟩ => ⟨S9437184, .f32⟩
  | .hbm, ⟨14, _⟩ => ⟨S9437184, .i1⟩
  | .hbm, ⟨15, _⟩ => ⟨S_, .f32⟩
  | .hbm, ⟨16, _⟩ => ⟨S9437184, .f32⟩
  | .hbm, ⟨17, _⟩ => ⟨S9437184, .i1⟩
  | .hbm, ⟨18, _⟩ => ⟨S_, .f32⟩
  | .hbm, ⟨19, _⟩ => ⟨S_, .f32⟩
  | .hbm, ⟨20, _⟩ => ⟨S9437184, .f32⟩
  | .hbm, ⟨21, _⟩ => ⟨S9437184, .f32⟩
  | .hbm, ⟨22, _⟩ => ⟨S_, .f32⟩
  | .hbm, ⟨23, _⟩ => ⟨S_, .f32⟩
  | .hbm, ⟨24, _⟩ => ⟨S9437184, .f32⟩
  | .hbm, ⟨25, _⟩ => ⟨S9437184, .f32⟩
  | .hbm, ⟨26, _⟩ => ⟨S9437184, .i32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S9437184, .f32⟩
  | .hbm, ⟨39, _⟩ => ⟨S9437184, .f32⟩
  | .hbm, ⟨40, _⟩ => ⟨S_, .f32⟩
  | .hbm, ⟨41, _⟩ => ⟨S9437184, .f32⟩
  | .hbm, ⟨42, _⟩ => ⟨S9437184, .i1⟩
  | .hbm, ⟨43, _⟩ => ⟨S_, .f32⟩
  | .hbm, ⟨44, _⟩ => ⟨S9437184, .f32⟩
  | .hbm, ⟨45, _⟩ => ⟨S9437184, .i1⟩
  | .hbm, ⟨46, _⟩ => ⟨S_, .f32⟩
  | .hbm, ⟨47, _⟩ => ⟨S_, .f32⟩
  | .hbm, ⟨48, _⟩ => ⟨S9437184, .f32⟩
  | .hbm, ⟨49, _⟩ => ⟨S9437184, .f32⟩
  | .hbm, ⟨50, _⟩ => ⟨S_, .f32⟩
  | .hbm, ⟨51, _⟩ => ⟨S_, .f32⟩
  | .hbm, ⟨52, _⟩ => ⟨S9437184, .f32⟩
  | .hbm, ⟨53, _⟩ => ⟨S9437184, .f32⟩
  | .hbm, ⟨54, _⟩ => ⟨S9437184, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S16x768x768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_v29 : Ref sig .tc := ⟨.hbm, 49, rfl⟩
abbrev main_cst_9 : Ref sig .tc := ⟨.hbm, 50, rfl⟩
abbrev main_call3_v0 : Ref sig .tc := ⟨.hbm, 51, rfl⟩
abbrev main_call3_v1 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_cst_13 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩

abbrev nD : Nat := 1
abbrev τ : Topo := Topo.v7x

variable {F : FTy → Type} [FloatOps F]

class Facts₀ : Prop where
  shapeCasts_S16x768x768x2_S9437184x2 : S16x768x768x2.ShapeCasts S9437184x2
  slices_S9437184x2_S9437184x1_0_0 : S9437184x2.Slices ![0, 0] S9437184x1
  shapeCasts_S9437184x1_S9437184 : S9437184x1.ShapeCasts S9437184
  slices_S9437184x2_S9437184x1_0_1 : S9437184x2.Slices ![0, 1] S9437184x1
  shapeCasts_S16x768x768_S9437184 : S16x768x768.ShapeCasts S9437184
  bcast_S_S9437184 : S_.BroadcastsInDim S9437184 (![] : Fin 0 → Fin S9437184.rank)
  natLt_1_32 : 1 < 32
  reducesTo_S9437184_S_d0 : S9437184.ReducesTo [0] S_
  h_S_ : 0 < S_.numel

variable [Facts₀]

class Facts : Prop extends Facts₀ where

variable [Facts]
-- ==== Proof.Spec.lean ====
/-
  THE SPECIFICATION: the loss both programs compute, as ONE function of the three argument arrays, at the ideal
  (extended-real) instance.

  Per pixel `q = (b, h, w)` and channel `k` (0: character, 1: affinity), with prediction `p = o (b, h, w, k)` and
  target `t`:
      positive term   (p - t)² where t ≥ 0.1, else 0
      negative term   (p - t)² where t ≤ 0,   else 0
      count term      1 where t ≥ 0.1, else 0        (the one-bit comparison widened to 32 bits, converted to a float)
  Each is summed over all 16·768·768 pixels; a channel's loss is (positive + negative) / (count + 9437184); the result
  is (character loss · 2 + affinity loss) · 100. Every float literal is kept as its bit pattern: the same patterns occur
  in both programs, so none is ever evaluated.
-/
import Idealize.ShloMosaic.PureOps.Ideal
import Idealize.ShloMosaic.Lib.ValueIdx

noncomputable section

namespace Cert.Spec

open Idealize.ShloMosaic Idealize.ShloMosaic.ValueIdx

/-- The predictions' shape: 16 images of 768 × 768 pixels, 2 channels. -/
abbrev Pred : Shape := ⟨4, ![16, 768, 768, 2]⟩
/-- A target map's shape, and the shape of the pixel index. -/
abbrev Tgt : Shape := ⟨3, ![16, 768, 768]⟩

/-- The squared error of a prediction against a target. -/
def sqErr (p t : Ideal .f32) : Ideal .f32 := FloatOps.mulf (FloatOps.subf p t) (FloatOps.subf p t)
/-- "The target is positive": at least 0.1 (as the f32 literal both programs carry). -/
def isPos (t : Ideal .f32) : BitVec 1 := FloatOps.cmpf .oge t (FloatOps.ofBits .f32 0x3DCCCCCD#32)
/-- "The target is negative": at most 0. -/
def isNeg (t : Ideal .f32) : BitVec 1 := FloatOps.cmpf .ole t (FloatOps.ofBits .f32 0x00000000#32)
/-- A pixel's positive term. -/
def posTerm (p t : Ideal .f32) : Ideal .f32 := Scalar.select (isPos t) (sqErr p t) (FloatOps.ofBits .f32 0x00000000#32)
/-- A pixel's negative term. -/
def negTerm (p t : Ideal .f32) : Ideal .f32 := Scalar.select (isNeg t) (sqErr p t) (FloatOps.ofBits .f32 0x00000000#32)
/-- A pixel's count term: 1 where the target is positive, else 0. -/
def cntTerm (t : Ideal .f32) : Ideal .f32 := FloatOps.sitofp .f32 ((isPos t).setWidth 32)

/-- Channel `k` of the predictions at pixel `q`. -/
def chan (o : Pred.Idx → Ideal .f32) (k : Fin 2) (q : Tgt.Idx) : Ideal .f32 := o (ix4 (q 0) (q 1) (q 2) k)

/-- The three totals of a channel against its target map, over all pixels. -/
def posTotal (o : Pred.Idx → Ideal .f32) (k : Fin 2) (a : Tgt.Idx → Ideal .f32) : Ideal .f32 :=
  ∑ q : Tgt.Idx, posTerm (chan o k q) (a q)
def negTotal (o : Pred.Idx → Ideal .f32) (k : Fin 2) (a : Tgt.Idx → Ideal .f32) : Ideal .f32 :=
  ∑ q : Tgt.Idx, negTerm (chan o k q) (a q)
def cntTotal (a : Tgt.Idx → Ideal .f32) : Ideal .f32 := ∑ q : Tgt.Idx, cntTerm (a q)

/-- A channel's loss from its three totals: (positive + negative) / (count + 9437184). -/
def channelLoss (pos neg cnt : Ideal .f32) : Ideal .f32 :=
  FloatOps.hostDivf (FloatOps.addf pos neg) (FloatOps.addf cnt (FloatOps.ofBits .f32 0x4B100000#32))

/-- The result from the six totals: (character loss · 2 + affinity loss) · 100. -/
def combine (a0 a1 a2 a3 a4 a5 : Ideal .f32) : Ideal .f32 :=
  FloatOps.mulf (FloatOps.addf (FloatOps.mulf (channelLoss a0 a1 a2) (FloatOps.ofBits .f32 0x40000000#32)) (channelLoss a3 a4 a5))
    (FloatOps.ofBits .f32 0x42C80000#32)

/-- THE LOSS of predictions `o` against the character map `a` and the affinity map `b`. -/
def loss (o : Pred.Idx → Ideal .f32) (a b : Tgt.Idx → Ideal .f32) : Ideal .f32 :=
  combine (posTotal o 0 a) (negTotal o 0 a) (cntTotal a) (posTotal o 1 b) (negTotal o 1 b) (cntTotal b)

end Cert.Spec

end
-- ==== Proof.Index.lean ====
/-
  Two ways of running through the 16·768·768 pixels, each a bijection with the pixel index `(b, h, w)`:

  * by FLAT position `j < 9437184` (row-major): pixel `(j / 589824, j / 768 % 768, j % 768)`;
  * by GRID POINT `t < 48` and position `(0, r, w)` inside that point's 1 × 256 × 768 block: pixel
    `(t / 3, (t % 3)·256 + r, w)` — the points run through the 16 images, three row bands each.

  So a sum over flat positions, and a sum over points of sums over a block, are both the sum over pixels.
-/
import Idealize.ShloMosaic.Lib.ValueIdx
import Mathlib.Algebra.BigOperators.Fin

noncomputable section

namespace Cert.Index

open Idealize.ShloMosaic Idealize.ShloMosaic.ValueIdx

abbrev Flat : Shape := ⟨1, ![9437184]⟩
abbrev Tgt : Shape := ⟨3, ![16, 768, 768]⟩
abbrev Blk : Shape := ⟨3, ![1, 256, 768]⟩

/-- The pixel at a flat position. -/
def unflat (j : Flat.Idx) : Tgt.Idx :=
  ix3 (⟨(j 0).val / 589824, by have h : (j 0).val < 9437184 := (j 0).isLt; omega⟩ : Fin 16)
    (⟨(j 0).val / 768 % 768, Nat.mod_lt _ (by norm_num)⟩ : Fin 768)
    (⟨(j 0).val % 768, Nat.mod_lt _ (by norm_num)⟩ : Fin 768)

/-- The flat position of a pixel. -/
def flat (q : Tgt.Idx) : Flat.Idx :=
  ix1 (⟨((q 0).val * 768 + (q 1).val) * 768 + (q 2).val, by
    have h0 : (q 0).val < 16 := (q 0).isLt
    have h1 : (q 1).val < 768 := (q 1).isLt
    have h2 : (q 2).val < 768 := (q 2).isLt
    omega⟩ : Fin 9437184)

/-- Flat positions and pixels correspond one to one. -/
def flatEquiv : Flat.Idx ≃ Tgt.Idx where
  toFun := unflat
  invFun := flat
  left_inv j := by
    have h : (j 0).val < 9437184 := (j 0).isLt
    funext a
    match a with
    | ⟨0, _⟩ =>
      exact Fin.ext (by
        show ((j 0).val / 589824 * 768 + (j 0).val / 768 % 768) * 768 + (j 0).val % 768 = (j 0).val
        omega)
  right_inv q := by
    have h0 : (q 0).val < 16 := (q 0).isLt
    have h1 : (q 1).val < 768 := (q 1).isLt
    have h2 : (q 2).val < 768 := (q 2).isLt
    funext a
    match a with
    | ⟨0, _⟩ => exact Fin.ext (by show (((q 0).val * 768 + (q 1).val) * 768 + (q 2).val) / 589824 = (q 0).val; omega)
    | ⟨1, _⟩ => exact Fin.ext (by show (((q 0).val * 768 + (q 1).val) * 768 + (q 2).val) / 768 % 768 = (q 1).val; omega)
    | ⟨2, _⟩ => exact Fin.ext (by show (((q 0).val * 768 + (q 1).val) * 768 + (q 2).val) % 768 = (q 2).val; omega)

/-- A sum over flat positions of a function of the pixel is the sum over pixels. -/
theorem sum_flat {M : Type*} [AddCommMonoid M] (g : Tgt.Idx → M) : ∑ j : Flat.Idx, g (unflat j) = ∑ q : Tgt.Idx, g q :=
  Equiv.sum_comp flatEquiv g

/-- The pixel at position `y` of grid point `t`'s block. -/
def place (t : Fin 48) (y : Blk.Idx) : Tgt.Idx :=
  ix3 (⟨t.val / 3, by have := t.isLt; omega⟩ : Fin 16)
    (⟨t.val % 3 * 256 + (y 1).val, by have h : (y 1).val < 256 := (y 1).isLt; omega⟩ : Fin 768)
    (⟨(y 2).val, (y 2).isLt⟩ : Fin 768)

/-- Grid points with positions inside a block, and pixels, correspond one to one. -/
def placeEquiv : Fin 48 × Blk.Idx ≃ Tgt.Idx where
  toFun p := place p.1 p.2
  invFun q :=
    (⟨(q 0).val * 3 + (q 1).val / 256, by
        have h0 : (q 0).val < 16 := (q 0).isLt
        have h1 : (q 1).val < 768 := (q 1).isLt
        omega⟩,
      ix3 (⟨0, by norm_num⟩ : Fin 1) (⟨(q 1).val % 256, Nat.mod_lt _ (by norm_num)⟩ : Fin 256) (⟨(q 2).val, (q 2).isLt⟩ : Fin 768))
  left_inv := fun ⟨t, y⟩ => by
    have ht := t.isLt
    have h0 : (y 0).val < 1 := (y 0).isLt
    have h1 : (y 1).val < 256 := (y 1).isLt
    refine Prod.ext (Fin.ext ?_) (funext fun a => ?_)
    · show t.val / 3 * 3 + (t.val % 3 * 256 + (y 1).val) / 256 = t.val
      omega
    · match a with
      | ⟨0, _⟩ => exact Fin.ext (by show 0 = (y 0).val; omega)
      | ⟨1, _⟩ => exact Fin.ext (by show (t.val % 3 * 256 + (y 1).val) % 256 = (y 1).val; omega)
      | ⟨2, _⟩ => exact Fin.ext rfl
  right_inv q := by
    have h0 : (q 0).val < 16 := (q 0).isLt
    have h1 : (q 1).val < 768 := (q 1).isLt
    funext a
    match a with
    | ⟨0, _⟩ => exact Fin.ext (by show ((q 0).val * 3 + (q 1).val / 256) / 3 = (q 0).val; omega)
    | ⟨1, _⟩ => exact Fin.ext (by show ((q 0).val * 3 + (q 1).val / 256) % 3 * 256 + (q 1).val % 256 = (q 1).val; omega)
    | ⟨2, _⟩ => exact Fin.ext rfl

/-- A sum over the grid points of sums over a block, of a function of the pixel, is the sum over pixels. -/
theorem sum_blocks {M : Type*} [AddCommMonoid M] (g : Tgt.Idx → M) :
    ∑ t : Fin 48, ∑ y : Blk.Idx, g (place t y) = ∑ q : Tgt.Idx, g q := by
  rw [← Fintype.sum_prod_type']
  exact Equiv.sum_comp placeEquiv g

end Cert.Index

end
-- ==== Proof.SumLaws.lean ====
/-
  Laws of finite sums used to join the two programs.

  * a finite sum of reals, read in the extended reals, is the sum of the readings;
  * a count: 32-bit words that are each 0 or 1, added up modulo 2³², fewer than 2³¹ of them — the signed reading of
    the total is the number of ones, so converting the integer total to a real is the same as adding the converted words;
  * a sum over the grid points up to `n`, one point at a time.
-/
import Idealize.ShloMosaic.PureOps.Ideal
import Idealize.ShloMosaic.PureOps.Reduce

namespace Cert.SumLaws

open Idealize.ShloMosaic

/-- A finite sum of reals read in the extended reals is the sum of the readings. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- 32-bit additions folded over a finite set: the unsigned reading of the result is the sum of the unsigned readings
    modulo 2³². -/
theorem fold_addi_toNat {ι : Type*} [DecidableEq ι] (s : Finset ι) (x : ι → BitVec 32) (init : BitVec 32) :
    (s.fold IntOp.addi init x).toNat = (init.toNat + ∑ i ∈ s, (x i).toNat) % 2 ^ 32 := by
  induction s using Finset.induction_on with
  | empty => simp [Nat.mod_eq_of_lt init.isLt]
  | insert a s ha ih =>
    rw [Finset.fold_insert ha, Finset.sum_insert ha]
    show (x a + s.fold IntOp.addi init x).toNat = _
    rw [BitVec.toNat_add, ih, Nat.add_mod_mod, Nat.add_left_comm]

/-- A one-bit word widened to 32 bits keeps its unsigned reading, which is 0 or 1. -/
theorem widen_one_bit : ∀ b : BitVec 1, (b.setWidth 32).toNat = b.toNat ∧ b.toNat ≤ 1 := by decide

/-- Below 2³¹ the signed reading of a 32-bit word is its unsigned reading. -/
theorem toInt_of_lt (w : BitVec 32) (h : w.toNat < 2147483648) : w.toInt = (w.toNat : ℤ) := by
  rw [BitVec.toInt_eq_toNat_cond, if_pos (by norm_num; omega)]

/-- THE COUNT. Fewer than 2³¹ one-bit words, widened and added up in 32 bits from zero: the total, converted to a
    real, is the sum of the words converted one by one (no wrap-around can occur). -/
theorem count_fold {ι : Type*} [Fintype ι] [DecidableEq ι] (y : ι → BitVec 1) (hc : Fintype.card ι < 2147483648) :
    (((Finset.univ.fold IntOp.addi (0#32) (fun i => (y i).setWidth 32)).toInt : ℝ) : EReal)
      = ∑ i, ((((y i).setWidth 32).toInt : ℝ) : EReal) := by
  have hb : ∀ i, ((y i).setWidth 32).toNat ≤ 1 := fun i => by
    rw [(widen_one_bit (y i)).1]; exact (widen_one_bit (y i)).2
  have hs : ∑ i, ((y i).setWidth 32).toNat ≤ Fintype.card ι :=
    (Finset.sum_le_sum fun i _ => hb i).trans (by simp)
  have hN : (Finset.univ.fold IntOp.addi (0#32) (fun i => (y i).setWidth 32)).toNat
      = ∑ i, ((y i).setWidth 32).toNat := by
    rw [fold_addi_toNat]
    simp only [BitVec.toNat_ofNat, Nat.zero_mod, Nat.zero_add]
    exact Nat.mod_eq_of_lt (lt_of_le_of_lt hs (lt_trans hc (by norm_num)))
  rw [toInt_of_lt _ (by rw [hN]; omega), hN]
  push_cast
  rw [coe_sum]
  refine Finset.sum_congr rfl fun i _ => ?_
  rw [toInt_of_lt _ (by have := hb i; omega)]
  push_cast
  rfl

section Points

variable {M : Type*} [AddCommMonoid M] {N : ℕ}

/-- The sum over the points up to 0 is the first point's term. -/
theorem sum_upto_zero (f : Fin N → M) (h : 0 < N) :
    (∑ t : Fin N, if t.val ≤ 0 then f t else 0) = f ⟨0, h⟩ := by
  have e : ∀ t : Fin N, (if t.val ≤ 0 then f t else 0) = if t = ⟨0, h⟩ then f t else 0 := fun t => by
    by_cases h1 : t = ⟨0, h⟩
    · subst h1; simp
    · have : ¬t.val ≤ 0 := fun h2 => h1 (Fin.ext (by simpa using h2))
      simp [h1, this]
  simp only [e, Finset.sum_ite_eq', Finset.mem_univ, if_true]

/-- The sum over the points up to `n + 1` is the sum up to `n` plus point `n + 1`'s term. -/
theorem sum_upto_succ (f : Fin N → M) (n : ℕ) (h : n + 1 < N) :
    (∑ t : Fin N, if t.val ≤ n + 1 then f t else 0) = (∑ t : Fin N, if t.val ≤ n then f t else 0) + f ⟨n + 1, h⟩ := by
  have e : ∀ t : Fin N, (if t.val ≤ n + 1 then f t else 0)
      = (if t.val ≤ n then f t else 0) + (if t = ⟨n + 1, h⟩ then f t else 0) := fun t => by
    by_cases h1 : t.val ≤ n
    · have h2 : t ≠ ⟨n + 1, h⟩ := fun e => by rw [e] at h1; simp at h1
      simp [h1, Nat.le_succ_of_le h1, h2]
    · by_cases h2 : t = ⟨n + 1, h⟩
      · subst h2; simp
      · have h3 : ¬t.val ≤ n + 1 := fun h3 => h2 (Fin.ext (by simp only; omega))
        simp [h1, h2, h3]
  simp only [e, Finset.sum_add_distrib, Finset.sum_ite_eq', Finset.mem_univ, if_true]

/-- Once every point is at most `n` the sum is over all of them. -/
theorem sum_upto_all (f : Fin N → M) (n : ℕ) (h : ∀ t : Fin N, t.val ≤ n) :
    (∑ t : Fin N, if t.val ≤ n then f t else 0) = ∑ t : Fin N, f t :=
  Finset.sum_congr rfl fun t _ => if_pos (h t)

end Points

end Cert.SumLaws
-- ==== Proof.RefSide.lean ====
/-
  THE REFERENCE COMPUTES THE SPECIFICATION.

  The reference flattens everything to 9437184 positions. Read at flat position `j` — pixel
  `(j / 589824, j / 768 % 768, j % 768)` — each of its per-position values is the specification's term at that pixel:
  the reshape of a target map reads the map at the pixel, and the reshape–slice–reshape of the predictions reads channel
  0 or 1 at the pixel. Its four float sums start from 0 and run over all positions, so they are the pixel totals. Its two
  counts are INTEGER sums (32-bit, from 0) of the widened comparison bits, converted to a float afterwards: by the count
  law (fewer than 2³¹ positions, each contributing 0 or 1) that is the sum of the bits converted one by one. The last
  few scalar operations are the specification's `combine` verbatim.
-/
import proofs.«163600_j38293928411859_1_alg».proof.Proof.Gen.ReferenceIdeal.Read
import proofs.«163600_j38293928411859_1_alg».proof.Proof.Spec
import proofs.«163600_j38293928411859_1_alg».proof.Proof.Index
import proofs.«163600_j38293928411859_1_alg».proof.Proof.SumLaws
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open Cert.Spec
open Cert.Index (unflat sum_flat)

/-- An integer `reduce … add` over ALL axes, from a zero initial value, of one-bit words widened to 32 bits, converted
    to a float at the ideal instance: the sum of the words converted one by one, when the operand has fewer than 2³¹
    elements. -/
theorem host_count {s : Shape} {axes : List (Fin s.rank)} (y : s.Idx → BitVec 1)
    (init : (⟨0, ![]⟩ : Shape).Idx → BitVec 32) (hinit : ∀ i, init i = 0#32) (h : s.ReducesTo axes ⟨0, ![]⟩)
    (hu : 0 < (⟨0, ![]⟩ : Shape).numel) (hc : s.numel < 2147483648) (j : (⟨0, ![]⟩ : Shape).Idx) :
    FloatOps.sitofp (F := Ideal) .f32 (Host.reduce IntOp.addi (fun i => (y i).setWidth 32) init h hu j)
      = ∑ i : s.Idx, FloatOps.sitofp (F := Ideal) .f32 ((y i).setWidth 32) := by
  rw [Host.reduce_eq_fold, hinit, Finset.filter_true_of_mem (fun i _ => funext fun b => b.elim0)]
  exact Cert.SumLaws.count_fold y (by rw [Fintype.card_congr s.rowMajor, Fintype.card_fin]; exact hc)

/-- The flattened arrays have fewer than 2³¹ elements. -/
theorem numel_lt : S9437184.numel < 2147483648 := by
  show (∏ a : Fin 1, (![9437184] : Fin 1 → Nat) a) < 2147483648
  rw [Fin.prod_univ_one]
  norm_num

variable (x0 : (⟨S16x768x768x2, .f32⟩ : BufTy).Contents (Elt Ideal)) (x1 x2 : (⟨S16x768x768, .f32⟩ : BufTy).Contents (Elt Ideal))

/-! ## Where a flat position reads the arguments -/

/-- The reshape of the character map reads it at the position's pixel. -/
theorem idx_map1 (j : S9437184.Idx) : idx_main_v5 j = unflat j := by
  funext a; match a with | ⟨0, _⟩ => rfl | ⟨1, _⟩ => rfl | ⟨2, _⟩ => rfl
/-- The reshape of the affinity map likewise. -/
theorem idx_map2 (j : S9437184.Idx) : idx_main_v6 j = unflat j := by
  funext a; match a with | ⟨0, _⟩ => rfl | ⟨1, _⟩ => rfl | ⟨2, _⟩ => rfl

/-- Column 0 of the predictions flattened to [9437184, 2] reads channel 0 at the position's pixel. -/
theorem idx_chan0 (j : S9437184.Idx) :
    idx_main_v0 (idx_main_v1 (idx_main_v2 j)) = ix4 (unflat j 0) (unflat j 1) (unflat j 2) (0 : Fin 2) := by
  have h : (j 0).val < 9437184 := (j 0).isLt
  funext a
  match a with
  | ⟨0, _⟩ => exact Fin.ext (by show ((j 0).val / 1 * 2 + 0) / 1179648 = (j 0).val / 589824; omega)
  | ⟨1, _⟩ => exact Fin.ext (by show ((j 0).val / 1 * 2 + 0) / 1536 % 768 = (j 0).val / 768 % 768; omega)
  | ⟨2, _⟩ => exact Fin.ext (by show ((j 0).val / 1 * 2 + 0) / 2 % 768 = (j 0).val % 768; omega)
  | ⟨3, _⟩ => exact Fin.ext (by show ((j 0).val / 1 * 2 + 0) % 2 = 0; omega)

/-- Column 1 reads channel 1. -/
theorem idx_chan1 (j : S9437184.Idx) :
    idx_main_v0 (idx_main_v3 (idx_main_v4 j)) = ix4 (unflat j 0) (unflat j 1) (unflat j 2) (1 : Fin 2) := by
  have h : (j 0).val < 9437184 := (j 0).isLt
  funext a
  match a with
  | ⟨0, _⟩ => exact Fin.ext (by show ((j 0).val / 1 * 2 + (1 + 0)) / 1179648 = (j 0).val / 589824; omega)
  | ⟨1, _⟩ => exact Fin.ext (by show ((j 0).val / 1 * 2 + (1 + 0)) / 1536 % 768 = (j 0).val / 768 % 768; omega)
  | ⟨2, _⟩ => exact Fin.ext (by show ((j 0).val / 1 * 2 + (1 + 0)) / 2 % 768 = (j 0).val % 768; omega)
  | ⟨3, _⟩ => exact Fin.ext (by show ((j 0).val / 1 * 2 + (1 + 0)) % 2 = 1; omega)

/-! ## The per-position values are the specification's terms -/

theorem pos0_at (j : S9437184.Idx) : val_main_v13 x0 x1 j = posTerm (chan x0 0 (unflat j)) (x1 (unflat j)) := by
  simp only [val_main_v13_apply, val_main_v10_apply, val_main_v8_apply, val_main_v7_apply, val_main_v2_apply,
    val_main_v1_apply, val_main_v0_apply, val_main_v5_apply, val_main_v9_apply, val_main_cst_apply,
    val_main_call0_v1_apply, val_main_call0_v0_apply, val_main_cst_1_apply, idx_chan0, idx_map1, posTerm, negTerm, isPos, isNeg, sqErr, chan]
  rfl

theorem neg0_at (j : S9437184.Idx) : val_main_v14 x0 x1 j = negTerm (chan x0 0 (unflat j)) (x1 (unflat j)) := by
  simp only [val_main_v14_apply, val_main_v12_apply, val_main_v8_apply, val_main_v7_apply, val_main_v2_apply,
    val_main_v1_apply, val_main_v0_apply, val_main_v5_apply, val_main_v11_apply, val_main_cst_0_apply,
    val_main_call1_v1_apply, val_main_call1_v0_apply, val_main_cst_2_apply, idx_chan0, idx_map1, posTerm, negTerm, isPos, isNeg, sqErr, chan]
  rfl

theorem bit0_at (j : S9437184.Idx) : val_main_v15 x1 j = (isPos (x1 (unflat j))).setWidth 32 := by
  simp only [val_main_v15_apply, val_main_v10_apply, val_main_v5_apply, val_main_v9_apply, val_main_cst_apply, idx_map1, isPos]

theorem pos1_at (j : S9437184.Idx) : val_main_v29 x0 x2 j = posTerm (chan x0 1 (unflat j)) (x2 (unflat j)) := by
  simp only [val_main_v29_apply, val_main_v26_apply, val_main_v24_apply, val_main_v23_apply, val_main_v4_apply,
    val_main_v3_apply, val_main_v0_apply, val_main_v6_apply, val_main_v25_apply, val_main_cst_6_apply,
    val_main_call2_v1_apply, val_main_call2_v0_apply, val_main_cst_8_apply, idx_chan1, idx_map2, posTerm, negTerm, isPos, isNeg, sqErr, chan]
  rfl

theorem neg1_at (j : S9437184.Idx) : val_main_v30 x0 x2 j = negTerm (chan x0 1 (unflat j)) (x2 (unflat j)) := by
  simp only [val_main_v30_apply, val_main_v28_apply, val_main_v24_apply, val_main_v23_apply, val_main_v4_apply,
    val_main_v3_apply, val_main_v0_apply, val_main_v6_apply, val_main_v27_apply, val_main_cst_7_apply,
    val_main_call3_v1_apply, val_main_call3_v0_apply, val_main_cst_9_apply, idx_chan1, idx_map2, posTerm, negTerm, isPos, isNeg, sqErr, chan]
  rfl

theorem bit1_at (j : S9437184.Idx) : val_main_v31 x2 j = (isPos (x2 (unflat j))).setWidth 32 := by
  simp only [val_main_v31_apply, val_main_v26_apply, val_main_v6_apply, val_main_v25_apply, val_main_cst_6_apply, idx_map2, isPos]

/-! ## The six totals -/

/-- A float sum from 0 over all flat positions of a function of the pixel is the pixel total. -/
theorem from_zero_sum (g : Tgt.Idx → Ideal .f32) :
    (FloatOps.ofBits (F := Ideal) .f32 0x00000000#32) + ∑ j : S9437184.Idx, g (unflat j) = ∑ q : Tgt.Idx, g q := by
  show Ideal.ofBits .f32 0x00000000#32 + _ = _
  rw [Ideal.ofBits_zero_f32, zero_add]
  exact sum_flat g

theorem pos0_total (i : S_.Idx) : val_main_v19 x0 x1 i = posTotal x0 0 x1 := by
  rw [val_main_v19_apply]
  simp only [pos0_at, val_main_cst_4_apply]
  exact from_zero_sum (fun q => posTerm (chan x0 0 q) (x1 q))

theorem neg0_total (i : S_.Idx) : val_main_v20 x0 x1 i = negTotal x0 0 x1 := by
  rw [val_main_v20_apply]
  simp only [neg0_at, val_main_cst_5_apply]
  exact from_zero_sum (fun q => negTerm (chan x0 0 q) (x1 q))

theorem pos1_total (i : S_.Idx) : val_main_v35 x0 x2 i = posTotal x0 1 x2 := by
  rw [val_main_v35_apply]
  simp only [pos1_at, val_main_cst_12_apply]
  exact from_zero_sum (fun q => posTerm (chan x0 1 q) (x2 q))

theorem neg1_total (i : S_.Idx) : val_main_v36 x0 x2 i = negTotal x0 1 x2 := by
  rw [val_main_v36_apply]
  simp only [neg1_at, val_main_cst_13_apply]
  exact from_zero_sum (fun q => negTerm (chan x0 1 q) (x2 q))

theorem cnt0_total (i : S_.Idx) : val_main_v17 x1 i = cntTotal x1 := by
  rw [val_main_v17_apply]
  unfold val_main_v16
  rw [show val_main_v15 x1 = fun j => (isPos (x1 (unflat j))).setWidth 32 from funext (bit0_at x1)]
  rw [host_count (fun j => isPos (x1 (unflat j))) (val_main_c (F := Ideal)) (fun _ => rfl) reducesTo_S9437184_S_d0 h_S_ numel_lt i]
  exact sum_flat (fun q => cntTerm (x1 q))

theorem cnt1_total (i : S_.Idx) : val_main_v33 x2 i = cntTotal x2 := by
  rw [val_main_v33_apply]
  unfold val_main_v32
  rw [show val_main_v31 x2 = fun j => (isPos (x2 (unflat j))).setWidth 32 from funext (bit1_at x2)]
  rw [host_count (fun j => isPos (x2 (unflat j))) (val_main_c_10 (F := Ideal)) (fun _ => rfl) reducesTo_S9437184_S_d0 h_S_ numel_lt i]
  exact sum_flat (fun q => cntTerm (x2 q))

/-! ## The result -/

/-- The reference's result, at its one index, is the specification's loss of the three argument arrays. -/
theorem result_eq (i : S_.Idx) : val_main_v41 x0 x1 x2 i = loss x0 x1 x2 := by
  rw [val_main_v41_apply, val_main_v40_apply, val_main_v39_apply, val_main_v38_apply, val_main_v22_apply,
    val_main_v21_apply, val_main_v37_apply, val_main_v18_apply, val_main_v34_apply, pos0_total, neg0_total, cnt0_total,
    pos1_total, neg1_total, cnt1_total, val_main_cst_3_apply, val_main_cst_11_apply, val_main_cst_14_apply,
    val_main_cst_15_apply]
  rfl

end Cert.ReferenceIdeal.RefValue

end
-- ==== Proof.Body.lean ====
/-
  ONE GRID POINT'S WORK ON THE ACCUMULATOR.

  The kernel's output block is an 8 × 128 accumulator that stays in place over all 48 grid points. At a point the body
  loads four 1 × 256 × 768 blocks — character predictions `x0`, affinity predictions `x1`, character targets `x2`,
  affinity targets `x3` —, reduces them to six scalars (for each channel: the sum of the positive terms, of the
  negative terms, and of the count terms over the block), spreads scalar number `k` over row `k` of an 8 × 128 tile (a
  select on the row index, 0 elsewhere), adds the six tiles, and adds the result into the accumulator; at the first point
  it zeroes the accumulator first.

  `upd` is that update as one function of the four blocks and the accumulator's contents before; `out_A` and `out_B`
  say that the two control cases (the first point, every other point) leave `upd` of the zero tile and `upd` of what the
  point before left. `upd_at` reads the update at row `r`, lane `l`, at the ideal instance: the old entry plus the row's
  share `delta` of the six block sums; `delta_row0` … `delta_row5` say that row `k`'s share is sum number `k`.
-/
import proofs.«163600_j38293928411859_1_alg».proof.Proof.Gen.KernelIdeal.Frame
import proofs.«163600_j38293928411859_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Body

open Cert.KernelIdeal Cert.KernelIdeal.Gen
open Idealize.ShloMosaic Idealize.ShloMosaic.TcCoe Idealize.SL.Sem Idealize.ShloMosaic.Tactic
open Idealize.ShloMosaic.ValueIdx
open Cert.Spec

/-! ## The update, and the two control cases -/

section AnyInstance

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One point's update of the accumulator `acc` from the point's four input blocks. -/
def upd (x0 x1 x2 x3 : Vec F S1x256x768 .f32) (acc : Vec F S8x128 .f32) : Vec F S8x128 .f32 :=
  k0_pay1 (k0_pay13 (k0_pay7 x2)) (k0_pay14 (k0_pay10 x1 x3)) (k0_pay15 (k0_pay11 x1 x3)) (k0_pay16 (k0_pay8 x3))
    (iota .tc S8x128 32 [0] iota_S8x128_d0_w32) (k0_pay17 (k0_pay9 x0 x2) (k0_pay12 x0 x2)) k0_pay18 acc

/-- Every point but the first: the body leaves the update of what the accumulator held. -/
theorem out_B (c : Dev nD) (i : grid0.Coords) (a2 : Memref sig .tc .vmem S1x256x768 .f32) (h2 : a2.IsWhole)
    (a3 : Memref sig .tc .vmem S1x256x768 .f32) (h3 : a3.IsWhole) (a4 : Memref sig .tc .vmem S1x256x768 .f32) (h4 : a4.IsWhole)
    (a5 : Memref sig .tc .vmem S1x256x768 .f32) (h5 : a5.IsWhole) (a6 : Memref sig .tc .vmem S8x128 .f32) (h6 : a6.IsWhole)
    (hc : ¬cond0_0 i) (x0 x1 x2 x3 : Vec F S1x256x768 .f32) (xo4 : Vec F S8x128 .f32) :
    out0_B_4 c i a2 h2 a3 h3 a4 h4 a5 h5 a6 h6 hc x0 x1 x2 x3 xo4 = upd x0 x1 x2 x3 xo4 := by
  unfold out0_B_4
  rw [View.read_writes_eq_canon _ _ _ (cover0_B_4 c i a2 h2 a3 h3 a4 h4 a5 h5 a6 h6 hc x0 x1 x2 x3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S1x256x768) hz3, View.ld_unit_zero (S := S8x128) hz2]
  rfl

/-- The first point: the body stores the zero tile, reads it back, and leaves its update. -/
theorem out_A (c : Dev nD) (i : grid0.Coords) (a2 : Memref sig .tc .vmem S1x256x768 .f32) (h2 : a2.IsWhole)
    (a3 : Memref sig .tc .vmem S1x256x768 .f32) (h3 : a3.IsWhole) (a4 : Memref sig .tc .vmem S1x256x768 .f32) (h4 : a4.IsWhole)
    (a5 : Memref sig .tc .vmem S1x256x768 .f32) (h5 : a5.IsWhole) (a6 : Memref sig .tc .vmem S8x128 .f32) (h6 : a6.IsWhole)
    (hc : cond0_0 i) (x0 x1 x2 x3 : Vec F S1x256x768 .f32) :
    out0_A_4 c i a2 h2 a3 h3 a4 h4 a5 h5 a6 h6 hc x0 x1 x2 x3 = upd x0 x1 x2 x3 (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S8x128) hz2, View.readCov_unit_zero (S := S8x128) _ hz2]
  simp only [View.readAt_eq_ld, h2.read_unread, h3.read_unread, h4.read_unread, h5.read_unread,
    View.ld_unit_zero (S := S1x256x768) hz3]
  rfl

end AnyInstance

/-! ## A block's position, and the two views of a block -/

/-- A position in a 1 × 256 × 768 block is (0, its row, its lane). -/
theorem pos_eq (i : S1x256x768.Idx) : ix3 (0 : Fin 1) (i 1) (i 2) = i := by
  funext a
  match a with
  | ⟨0, _⟩ => exact Fin.ext (by have h : (i 0).val < 1 := (i 0).isLt; show 0 = (i 0).val; omega)
  | ⟨1, _⟩ => rfl
  | ⟨2, _⟩ => rfl

/-- The block viewed as 256 × 768, at a position's row and lane, is the block at the position. -/
theorem down_at {α : Type} (x : S1x256x768.Idx → α) (i : S1x256x768.Idx) :
    shapeCast S256x768 x shapeCasts_S1x256x768_S256x768 (ix2 (i 1) (i 2)) = x i :=
  (shapeCast_1ab_ab_apply x shapeCasts_S1x256x768_S256x768 (i 1) (i 2)).trans (congrArg x (pos_eq i))

/-- A 256 × 768 value viewed as a block again, at a position, is the value at the position's row and lane. -/
theorem up_at {α : Type} (v : S256x768.Idx → α) (i : S1x256x768.Idx) :
    shapeCast S1x256x768 v shapeCasts_S256x768_S1x256x768 i = v (ix2 (i 1) (i 2)) :=
  (congrArg (shapeCast S1x256x768 v shapeCasts_S256x768_S1x256x768) (eq_ix3 i)).trans
    (shapeCast_ab_1ab_apply v _ (i 0) (i 1) (i 2))

/-! ## The body's per-position values, at the ideal instance -/

section AtIdeal

variable (x0 x1 x2 x3 : Vec Ideal S1x256x768 .f32)

theorem pay3_at (x : Vec Ideal S1x256x768 .f32) (i : S1x256x768.Idx) : k0_pay3 x (ix2 (i 1) (i 2)) = x i := down_at x i
theorem pay4_at (x : Vec Ideal S1x256x768 .f32) (i : S1x256x768.Idx) : k0_pay4 x (ix2 (i 1) (i 2)) = x i := down_at x i

/-- The squared error of the character channel at a position. -/
theorem pay5_at (i : S1x256x768.Idx) : k0_pay5 x0 x2 (ix2 (i 1) (i 2)) = sqErr (x0 i) (x2 i) := by
  show FloatOps.mulf (FloatOps.subf (shapeCast S256x768 x0 shapeCasts_S1x256x768_S256x768 (ix2 (i 1) (i 2))) (k0_pay3 x2 (ix2 (i 1) (i 2))))
      (FloatOps.subf (shapeCast S256x768 x0 shapeCasts_S1x256x768_S256x768 (ix2 (i 1) (i 2))) (k0_pay3 x2 (ix2 (i 1) (i 2)))) = _
  rw [down_at, pay3_at]
  rfl

/-- The squared error of the affinity channel at a position. -/
theorem pay6_at (i : S1x256x768.Idx) : k0_pay6 x1 x3 (ix2 (i 1) (i 2)) = sqErr (x1 i) (x3 i) := by
  show FloatOps.mulf (FloatOps.subf (shapeCast S256x768 x1 shapeCasts_S1x256x768_S256x768 (ix2 (i 1) (i 2))) (k0_pay4 x3 (ix2 (i 1) (i 2))))
      (FloatOps.subf (shapeCast S256x768 x1 shapeCasts_S1x256x768_S256x768 (ix2 (i 1) (i 2))) (k0_pay4 x3 (ix2 (i 1) (i 2)))) = _
  rw [down_at, pay4_at]
  rfl

theorem pay7_at (i : S1x256x768.Idx) : k0_pay7 x2 (ix2 (i 1) (i 2)) = isPos (x2 i) := by
  show FloatOps.cmpf .oge (k0_pay3 x2 (ix2 (i 1) (i 2))) (Scalar.ofBits (F := Ideal) .f32 0x3DCCCCCD#32) = _
  rw [pay3_at]
  rfl

theorem pay8_at (i : S1x256x768.Idx) : k0_pay8 x3 (ix2 (i 1) (i 2)) = isPos (x3 i) := by
  show FloatOps.cmpf .oge (k0_pay4 x3 (ix2 (i 1) (i 2))) (Scalar.ofBits (F := Ideal) .f32 0x3DCCCCCD#32) = _
  rw [pay4_at]
  rfl

theorem pay9_at (i : S1x256x768.Idx) : k0_pay9 x0 x2 (ix2 (i 1) (i 2)) = negTerm (x0 i) (x2 i) := by
  show Scalar.select (FloatOps.cmpf .ole (k0_pay3 x2 (ix2 (i 1) (i 2))) (Scalar.ofBits (F := Ideal) .f32 0x00000000#32))
      (k0_pay5 x0 x2 (ix2 (i 1) (i 2))) (Scalar.ofBits (F := Ideal) .f32 0x00000000#32) = _
  rw [pay3_at, pay5_at]
  rfl

theorem pay10_at (i : S1x256x768.Idx) : k0_pay10 x1 x3 (ix2 (i 1) (i 2)) = posTerm (x1 i) (x3 i) := by
  show Scalar.select (k0_pay8 x3 (ix2 (i 1) (i 2))) (k0_pay6 x1 x3 (ix2 (i 1) (i 2))) (Scalar.ofBits (F := Ideal) .f32 0x00000000#32) = _
  rw [pay8_at, pay6_at]
  rfl

theorem pay11_at (i : S1x256x768.Idx) : k0_pay11 x1 x3 (ix2 (i 1) (i 2)) = negTerm (x1 i) (x3 i) := by
  show Scalar.select (FloatOps.cmpf .ole (k0_pay4 x3 (ix2 (i 1) (i 2))) (Scalar.ofBits (F := Ideal) .f32 0x00000000#32))
      (k0_pay6 x1 x3 (ix2 (i 1) (i 2))) (Scalar.ofBits (F := Ideal) .f32 0x00000000#32) = _
  rw [pay4_at, pay6_at]
  rfl

theorem pay12_at (i : S1x256x768.Idx) : k0_pay12 x0 x2 i = posTerm (x0 i) (x2 i) := by
  show shapeCast S1x256x768 (select (k0_pay7 x2) (k0_pay5 x0 x2) (broadcast S256x768 (Scalar.ofBits (F := Ideal) .f32 0x00000000#32)))
      shapeCasts_S256x768_S1x256x768 i = _
  rw [up_at]
  show Scalar.select (k0_pay7 x2 (ix2 (i 1) (i 2))) (k0_pay5 x0 x2 (ix2 (i 1) (i 2))) (Scalar.ofBits (F := Ideal) .f32 0x00000000#32) = _
  rw [pay7_at, pay5_at]
  rfl

/-! ## The six block sums -/

/-- The body's way of summing a block to a scalar — reduce over rows and lanes into one element, view it 1 × 1 × 1, extract it
    — is the sum over the block's positions. -/
theorem total_at (v : FVec Ideal S1x256x768 .f32) :
    extractAt ![0, 0, 0] (shapeCast S1x1x1 (multiReduction .add [1, 2] S1 v 0x00000000#32 reduces_S1x256x768_S1 (.inl rfl) rfl)
      shapeCasts_S1_S1x1x1) inpos_S1x1x1_p0_0_0 = ∑ i : S1x256x768.Idx, v i := by
  unfold extractAt shapeCast
  exact Ideal.multiReduction_add_total v _ reduces_S1x256x768_S1 (fun b => by fin_cases b; rfl) (.inl rfl) rfl _

/-- A block's three sums against its target block. -/
def bPos (p t : Vec Ideal S1x256x768 .f32) : Ideal .f32 := ∑ i : S1x256x768.Idx, posTerm (p i) (t i)
def bNeg (p t : Vec Ideal S1x256x768 .f32) : Ideal .f32 := ∑ i : S1x256x768.Idx, negTerm (p i) (t i)
def bCnt (t : Vec Ideal S1x256x768 .f32) : Ideal .f32 := ∑ i : S1x256x768.Idx, cntTerm (t i)

/-- The count term of a position from the comparison bit there. -/
theorem cnt_at (b : IVec S256x768 1) (i : S1x256x768.Idx) (t : Ideal .f32) (hb : b (ix2 (i 1) (i 2)) = isPos t) :
    shapeCast S1x256x768 (sitofp (F := Ideal) .f32 (extui 32 b natLt_1_32)) shapeCasts_S256x768_S1x256x768 i = cntTerm t := by
  rw [up_at, sitofp_apply, extui_apply, hb]
  rfl

theorem pay13_at (j : S1x1.Idx) : k0_pay13 (F := Ideal) (k0_pay7 x2) j = bCnt x2 := by
  unfold k0_pay13
  rw [broadcast_apply]
  refine (total_at _).trans ?_
  exact Finset.sum_congr rfl fun i _ => cnt_at (k0_pay7 x2) i (x2 i) (pay7_at x2 i)

theorem pay16_at (j : S1x1.Idx) : k0_pay16 (F := Ideal) (k0_pay8 x3) j = bCnt x3 := by
  unfold k0_pay16
  rw [broadcast_apply]
  refine (total_at _).trans ?_
  exact Finset.sum_congr rfl fun i _ => cnt_at (k0_pay8 x3) i (x3 i) (pay8_at x3 i)

theorem pay14_at (j : S1x1.Idx) : k0_pay14 (k0_pay10 x1 x3) j = bPos x1 x3 := by
  unfold k0_pay14
  rw [broadcast_apply]
  refine (total_at _).trans ?_
  exact Finset.sum_congr rfl fun i _ => (up_at (k0_pay10 x1 x3) i).trans (pay10_at x1 x3 i)

theorem pay15_at (j : S1x1.Idx) : k0_pay15 (k0_pay11 x1 x3) j = bNeg x1 x3 := by
  unfold k0_pay15
  rw [broadcast_apply]
  refine (total_at _).trans ?_
  exact Finset.sum_congr rfl fun i _ => (up_at (k0_pay11 x1 x3) i).trans (pay11_at x1 x3 i)

/-! ## The update at an entry of the accumulator -/

/-- "Row `r` is row number `k`", as the body decides it: the row index as a 32-bit word against the constant. -/
def rowBit (r : Fin 8) (k : BitVec 32) : BitVec 1 := IntOp.cmpi .eq (BitVec.ofNat 32 r.val) k
/-- A scalar spread over row number `k`: the scalar on that row, 0 on the others. -/
def onRow (r : Fin 8) (k : BitVec 32) (s : Ideal .f32) : Ideal .f32 :=
  Scalar.select (rowBit r k) s (FloatOps.ofBits .f32 0x00000000#32)
/-- Row `r`'s share of six scalars spread over rows 0 … 5 and added up in the body's order. -/
def delta (s0 s1 s2 s3 s4 s5 : Ideal .f32) (r : Fin 8) : Ideal .f32 :=
  FloatOps.addf (FloatOps.addf (FloatOps.addf (FloatOps.addf (FloatOps.addf (onRow r 0#32 s0) (onRow r 1#32 s1)) (onRow r 2#32 s2))
    (onRow r 3#32 s3)) (onRow r 4#32 s4)) (onRow r 5#32 s5)

/-- An integer comparison of vectors, at an index. -/
theorem cmpi_at {s : Shape} {w : Nat} (p : CmpIPredicate) (a b : IVec s w) (i : s.Idx) : cmpi p a b i = IntOp.cmpi p (a i) (b i) := rfl

/-- A 1 × 1 value spread over the 8 × 128 tile reads, everywhere, its one element. -/
theorem spread_at (v : FVec Ideal S1x1 .f32) (j : S8x128.Idx) :
    broadcastTo S8x128 (shapeCast S1x1 v shapeCasts_S1x1_S1x1) broadcasts_S1x1_S8x128 j = v (ix2 0 0) := by
  rw [shapeCast_self]
  exact broadcastTo_apply v broadcasts_S1x1_S8x128 j (ix2 0 0) (fun a => by fin_cases a <;> rfl)

/-- The row test at row `r`, any lane, against the constant `k`. -/
theorem row_test (r : Fin 8) (l : Fin 128) (k : BitVec 32) :
    IntOp.cmpi .eq (iota .tc S8x128 32 [0] iota_S8x128_d0_w32 (ix2 r l)) k = rowBit r k := by
  rw [iota_single_apply]
  rfl

theorem pay17_at (r : Fin 8) (l : Fin 128) :
    k0_pay17 (k0_pay9 x0 x2) (k0_pay12 x0 x2) (ix2 r l)
      = FloatOps.addf (onRow r 0#32 (bPos x0 x2)) (onRow r 1#32 (bNeg x0 x2)) := by
  have e1 : (∑ i : S1x256x768.Idx, k0_pay12 x0 x2 i) = bPos x0 x2 :=
    Finset.sum_congr rfl fun i _ => pay12_at x0 x2 i
  have e2 : (∑ i : S1x256x768.Idx, shapeCast S1x256x768 (k0_pay9 x0 x2) shapeCasts_S256x768_S1x256x768 i) = bNeg x0 x2 :=
    Finset.sum_congr rfl fun i _ => (up_at (k0_pay9 x0 x2) i).trans (pay9_at x0 x2 i)
  unfold k0_pay17
  rw [addf_apply, select_apply, select_apply]
  rw [cmpi_at, cmpi_at, broadcast_apply, broadcast_apply, broadcast_apply]
  rw [row_test, row_test]
  rw [spread_at, spread_at, broadcast_apply, broadcast_apply]
  rw [total_at, total_at, e1, e2]
  rfl

theorem pay18_at (r : Fin 8) (l : Fin 128) : k0_pay18 (ix2 r l) = rowBit r 2#32 := by
  unfold k0_pay18
  rw [cmpi_at, broadcast_apply]
  exact row_test r l 2#32

/-- The six block sums of a point's four blocks, shared out over the rows. -/
def pointDelta (r : Fin 8) : Ideal .f32 :=
  delta (bPos x0 x2) (bNeg x0 x2) (bCnt x2) (bPos x1 x3) (bNeg x1 x3) (bCnt x3) r

/-- THE UPDATE AT AN ENTRY: the old entry plus the row's share of the point's six block sums. -/
theorem upd_at (acc : Vec Ideal S8x128 .f32) (r : Fin 8) (l : Fin 128) :
    upd x0 x1 x2 x3 acc (ix2 r l) = acc (ix2 r l) + pointDelta x0 x1 x2 x3 r := by
  unfold upd k0_pay1
  rw [addf_apply, addf_apply, addf_apply, addf_apply, addf_apply]
  rw [select_apply, select_apply, select_apply, select_apply]
  rw [cmpi_at, cmpi_at, cmpi_at]
  rw [spread_at, spread_at, spread_at, spread_at]
  rw [broadcast_apply, broadcast_apply, broadcast_apply, broadcast_apply]
  rw [row_test, row_test, row_test]
  rw [shapeCast_self, pay17_at, pay18_at, pay13_at, pay14_at, pay15_at, pay16_at]
  rfl

end AtIdeal

/-! ## Row k's share is sum number k -/

section Rows

variable (s0 s1 s2 s3 s4 s5 : Ideal .f32)

theorem zero_lit : FloatOps.ofBits (F := Ideal) .f32 0x00000000#32 = (0 : EReal) := Ideal.ofBits_zero_f32

theorem delta_row0 : delta s0 s1 s2 s3 s4 s5 0 = s0 := by
  simp [delta, onRow, rowBit, IntOp.cmpi, Scalar.select, zero_lit]
theorem delta_row1 : delta s0 s1 s2 s3 s4 s5 1 = s1 := by
  simp [delta, onRow, rowBit, IntOp.cmpi, Scalar.select, zero_lit]
theorem delta_row2 : delta s0 s1 s2 s3 s4 s5 2 = s2 := by
  simp [delta, onRow, rowBit, IntOp.cmpi, Scalar.select, zero_lit]
theorem delta_row3 : delta s0 s1 s2 s3 s4 s5 3 = s3 := by
  simp [delta, onRow, rowBit, IntOp.cmpi, Scalar.select, zero_lit]
theorem delta_row4 : delta s0 s1 s2 s3 s4 s5 4 = s4 := by
  simp [delta, onRow, rowBit, IntOp.cmpi, Scalar.select, zero_lit]
theorem delta_row5 : delta s0 s1 s2 s3 s4 s5 5 = s5 := by
  simp [delta, onRow, rowBit, IntOp.cmpi, Scalar.select, zero_lit]

end Rows

end Cert.KernelIdeal.Body

end
-- ==== Proof.Points.lean ====
/-
  THE ACCUMULATOR OVER THE GRID, AND THE BLOCKS AS PIXELS.

  * After point `n` an entry (row `r`, any lane) of the accumulator block holds the sum, over the points `t ≤ n`, of row
    `r`'s share of point `t`'s six block sums: the first point starts from the zero tile, every later point adds to what the
    point before left — an induction on the point, never an enumeration of the 48 points.
  * Point `t`'s blocks are read off the four arrays the region finds: position `(0, r, w)` of the block is pixel
    `(t / 3, (t % 3)·256 + r, w)`. Two of those arrays are the target maps themselves; the other two are the channel planes the
    host slices out of the predictions before the region, so they read channel 0 and channel 1 of the predictions.
  * Hence a block sum is a sum of the specification's terms over the block's pixels, and the sum over all points of a block
    sum is the specification's total over all pixels.
-/
import proofs.«163600_j38293928411859_1_alg».proof.Proof.Body
import proofs.«163600_j38293928411859_1_alg».proof.Proof.Index
import proofs.«163600_j38293928411859_1_alg».proof.Proof.SumLaws
import Idealize.ShloMosaic.Lib.StableHlo.Run

noncomputable section

namespace Cert.KernelIdeal.Points

open Cert.KernelIdeal Cert.KernelIdeal.Gen Cert.KernelIdeal.Body
open Idealize.ShloMosaic Idealize.ShloMosaic.TcCoe Idealize.SL.Sem Idealize.ShloMosaic.ValueIdx
open Idealize.ShloMosaic.StableHlo
open Cert.Spec

variable (m : (ℓ : Loc nD τ sig) → Buf (Elt Ideal) ℓ) (c : Dev nD)

/-! ## The four input blocks of a point, and the accumulator after a point -/

/-- Point `t`'s blocks: character predictions, affinity predictions, character targets, affinity targets. -/
abbrev b0 (t : Fin cfg0.N) : Vec Ideal S1x256x768 .f32 := iblk m c 0 t
abbrev b1 (t : Fin cfg0.N) : Vec Ideal S1x256x768 .f32 := iblk m c 1 t
abbrev b2 (t : Fin cfg0.N) : Vec Ideal S1x256x768 .f32 := iblk m c 2 t
abbrev b3 (t : Fin cfg0.N) : Vec Ideal S1x256x768 .f32 := iblk m c 3 t

/-- The first point leaves the update of the zero tile. -/
theorem outs_first (t : Fin cfg0.N) (h0 : t.val % 48 = 0) :
    outsAt0 m c t.val t.isLt = upd (b0 m c t) (b1 m c t) (b2 m c t) (b3 m c t) (k0_pay2 (F := Ideal)) :=
  (outsAt0_A m c t h0).trans
    (out_A c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t) (iblk m c 3 t))

/-- Every other point leaves the update of what the point before left. -/
theorem outs_later (t : Fin cfg0.N) (h0 : ¬t.val % 48 = 0) :
    outsAt0 m c t.val t.isLt = upd (b0 m c t) (b1 m c t) (b2 m c t) (b3 m c t)
      (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)))

/-- Row `r`'s share of point `t`'s six block sums. -/
def share (t : Fin cfg0.N) (r : Fin 8) : Ideal .f32 := pointDelta (b0 m c t) (b1 m c t) (b2 m c t) (b3 m c t) r

/-- THE ACCUMULATOR AFTER POINT `n`, at row `r` and any lane: the shares of the points up to `n`, added up. -/
theorem outs_eq : ∀ (n : ℕ) (h : n < cfg0.N) (r : Fin 8) (l : Fin 128),
    outsAt0 m c n h (ix2 r l) = ∑ t : Fin cfg0.N, if t.val ≤ n then share m c t r else 0
  | 0, h, r, l => by
    rw [show outsAt0 m c 0 h = _ from outs_first m c ⟨0, h⟩ rfl, upd_at, Cert.SumLaws.sum_upto_zero (fun t => share m c t r) h]
    show (FloatOps.ofBits (F := Ideal) .f32 0x00000000#32 : EReal) + _ = _
    rw [zero_lit, zero_add]
    rfl
  | n + 1, h, r, l => by
    have hN : cfg0.N = 48 := N_0
    have hB : ¬(⟨n + 1, h⟩ : Fin cfg0.N).val % 48 = 0 := by dsimp only; omega
    rw [show outsAt0 m c (n + 1) h = _ from outs_later m c ⟨n + 1, h⟩ hB, upd_at,
      Cert.SumLaws.sum_upto_succ (fun t => share m c t r) n h]
    show outsAt0 m c n _ (ix2 r l) + _ = _
    rw [outs_eq n (Nat.lt_of_succ_lt h) r l]
    rfl

/-- After the last point: the shares of all points. -/
theorem outs_last (h : 47 < cfg0.N) (r : Fin 8) (l : Fin 128) :
    outsAt0 m c 47 h (ix2 r l) = ∑ t : Fin cfg0.N, share m c t r := by
  rw [outs_eq m c 47 h r l]
  exact Cert.SumLaws.sum_upto_all (fun t => share m c t r) 47 (fun t => by
    have := t.isLt; have hN : cfg0.N = 48 := N_0; omega)

/-! ## The arrays the region finds -/

/-- The character-prediction plane the host makes before the region: the predictions sliced at channel 0, the unit axis
    dropped. -/
theorem plane0_eq : (V m c main_v1 : S16x768x768.Idx → Ideal .f32)
    = shapeCast S16x768x768 (extractStridedSlice S16x768x768x1 ![0, 0, 0, 0] (m ((c : Thread nD τ).loc main_arg0))
        slices_S16x768x768x2_S16x768x768x1_0_0_0_0) shapeCasts_S16x768x768x1_S16x768x768 := by
  show StableHlo.after hostOps0 (fun b => m (c, b)) (Proc.devRef .tc main_v1) = _
  after_results
  rfl

/-- The affinity-prediction plane: the predictions sliced at channel 1. -/
theorem plane1_eq : (V m c main_v3 : S16x768x768.Idx → Ideal .f32)
    = shapeCast S16x768x768 (extractStridedSlice S16x768x768x1 ![0, 0, 0, 1] (m ((c : Thread nD τ).loc main_arg0))
        slices_S16x768x768x2_S16x768x768x1_0_0_0_1) shapeCasts_S16x768x768x1_S16x768x768 := by
  show StableHlo.after hostOps0 (fun b => m (c, b)) (Proc.devRef .tc main_v3) = _
  after_results
  rfl

/-- A channel plane `slice at channel k, drop the unit axis` of predictions `o` reads channel `k` at the pixel. -/
theorem plane_at (o : S16x768x768x2.Idx → Ideal .f32) (k : Fin 2) (off : Fin 4 → Nat) (hoff : off = ![0, 0, 0, k.val])
    (hs : S16x768x768x2.Slices off S16x768x768x1) (q : S16x768x768.Idx) :
    shapeCast S16x768x768 (extractStridedSlice S16x768x768x1 off o hs) shapeCasts_S16x768x768x1_S16x768x768 q = chan o k q := by
  subst hoff
  have h0 : (q 0).val < 16 := (q 0).isLt
  have h1 : (q 1).val < 768 := (q 1).isLt
  have h2 : (q 2).val < 768 := (q 2).isLt
  rw [shapeCast_apply _ shapeCasts_S16x768x768x1_S16x768x768 q (ix4 (q 0) (q 1) (q 2) (0 : Fin 1)) (by
    rw [Shape.rowMajor_val_four, Shape.rowMajor_val_three]
    show (((q 0).val * 768 + (q 1).val) * 768 + (q 2).val) * 1 + 0 = ((q 0).val * 768 + (q 1).val) * 768 + (q 2).val
    omega)]
  exact extractStridedSlice_apply _ o hs _ (ix4 (q 0) (q 1) (q 2) k) (fun a => match a with
    | ⟨0, _⟩ => by show (q 0).val = 0 + (q 0).val; omega
    | ⟨1, _⟩ => by show (q 1).val = 0 + (q 1).val; omega
    | ⟨2, _⟩ => by show (q 2).val = 0 + (q 2).val; omega
    | ⟨3, _⟩ => by show k.val = k.val + 0; omega)

/-! ## A block's positions are pixels -/

/-- Where the four input windows sit at point `t`: image `t / 3`, row band `t % 3`, all lanes — decided over the grid. -/
theorem idx_facts : ∀ t : Fin cfg0.N,
    (win0_0.index t 0 = t.val / 3 ∧ win0_0.index t 1 = t.val % 3 ∧ win0_0.index t 2 = 0)
    ∧ (win0_1.index t 0 = t.val / 3 ∧ win0_1.index t 1 = t.val % 3 ∧ win0_1.index t 2 = 0)
    ∧ (win0_2.index t 0 = t.val / 3 ∧ win0_2.index t 1 = t.val % 3 ∧ win0_2.index t 2 = 0)
    ∧ (win0_3.index t 0 = t.val / 3 ∧ win0_3.index t 1 = t.val % 3 ∧ win0_3.index t 2 = 0) :=
  (by decide +kernel : ∀ t : Fin grid0.N,
    (win0_0.index t 0 = t.val / 3 ∧ win0_0.index t 1 = t.val % 3 ∧ win0_0.index t 2 = 0)
    ∧ (win0_1.index t 0 = t.val / 3 ∧ win0_1.index t 1 = t.val % 3 ∧ win0_1.index t 2 = 0)
    ∧ (win0_2.index t 0 = t.val / 3 ∧ win0_2.index t 1 = t.val % 3 ∧ win0_2.index t 2 = 0)
    ∧ (win0_3.index t 0 = t.val / 3 ∧ win0_3.index t 1 = t.val % 3 ∧ win0_3.index t 2 = 0))

/-- The pixel of position `y` of point `t`'s blocks. -/
def pix (t : Fin cfg0.N) (y : S1x256x768.Idx) : S16x768x768.Idx := Cert.Index.place (Fin.cast N_0 t) y

end Cert.KernelIdeal.Points

end
-- ==== Proof.Blocks.lean ====
/-
  THE BLOCKS AS PIXELS, AND THE SIX TOTALS.

  Position `y = (0, r, w)` of point `t`'s block sits in its array at `(t / 3, (t % 3)·256 + r, w)` — the block index times the
  block size plus the position, axis by axis. So the two target blocks read the target maps at that pixel, and the two
  prediction blocks, taken from the channel planes, read channels 0 and 1 of the predictions there. A point's block sum is
  then the sum of the specification's terms over the block's pixels; points and positions together run through every pixel
  once, so the sum over all points of row `k`'s share is the specification's total number `k`.
-/
import proofs.«163600_j38293928411859_1_alg».proof.Proof.Points

noncomputable section

namespace Cert.KernelIdeal.Points

open Cert.KernelIdeal Cert.KernelIdeal.Gen Cert.KernelIdeal.Body
open Idealize.ShloMosaic Idealize.ShloMosaic.TcCoe Idealize.SL.Sem Idealize.ShloMosaic.ValueIdx
open Cert.Spec

variable (m : (ℓ : Loc nD τ sig) → Buf (Elt Ideal) ℓ) (c : Dev nD)

/-! ## Where a block's position sits in its array -/

theorem emb0 (t : Fin cfg0.N) (y : S1x256x768.Idx) : (((cfg0.win 0).blk t).view.emb y : S16x768x768.Idx) = pix t y := by
  have hi := (idx_facts t).1
  have hy0 : (y 0).val < 1 := (y 0).isLt
  refine funext fun a => Fin.ext ?_
  match a with
  | ⟨0, _⟩ => show win0_0.index t 0 * 1 + 1 * (y 0).val = t.val / 3; rw [hi.1]; omega
  | ⟨1, _⟩ => show win0_0.index t 1 * 256 + 1 * (y 1).val = t.val % 3 * 256 + (y 1).val; rw [hi.2.1]; omega
  | ⟨2, _⟩ => show win0_0.index t 2 * 768 + 1 * (y 2).val = (y 2).val; rw [hi.2.2]; omega

theorem emb1 (t : Fin cfg0.N) (y : S1x256x768.Idx) : (((cfg0.win 1).blk t).view.emb y : S16x768x768.Idx) = pix t y := by
  have hi := (idx_facts t).2.1
  have hy0 : (y 0).val < 1 := (y 0).isLt
  refine funext fun a => Fin.ext ?_
  match a with
  | ⟨0, _⟩ => show win0_1.index t 0 * 1 + 1 * (y 0).val = t.val / 3; rw [hi.1]; omega
  | ⟨1, _⟩ => show win0_1.index t 1 * 256 + 1 * (y 1).val = t.val % 3 * 256 + (y 1).val; rw [hi.2.1]; omega
  | ⟨2, _⟩ => show win0_1.index t 2 * 768 + 1 * (y 2).val = (y 2).val; rw [hi.2.2]; omega

theorem emb2 (t : Fin cfg0.N) (y : S1x256x768.Idx) : (((cfg0.win 2).blk t).view.emb y : S16x768x768.Idx) = pix t y := by
  have hi := (idx_facts t).2.2.1
  have hy0 : (y 0).val < 1 := (y 0).isLt
  refine funext fun a => Fin.ext ?_
  match a with
  | ⟨0, _⟩ => show win0_2.index t 0 * 1 + 1 * (y 0).val = t.val / 3; rw [hi.1]; omega
  | ⟨1, _⟩ => show win0_2.index t 1 * 256 + 1 * (y 1).val = t.val % 3 * 256 + (y 1).val; rw [hi.2.1]; omega
  | ⟨2, _⟩ => show win0_2.index t 2 * 768 + 1 * (y 2).val = (y 2).val; rw [hi.2.2]; omega

theorem emb3 (t : Fin cfg0.N) (y : S1x256x768.Idx) : (((cfg0.win 3).blk t).view.emb y : S16x768x768.Idx) = pix t y := by
  have hi := (idx_facts t).2.2.2
  have hy0 : (y 0).val < 1 := (y 0).isLt
  refine funext fun a => Fin.ext ?_
  match a with
  | ⟨0, _⟩ => show win0_3.index t 0 * 1 + 1 * (y 0).val = t.val / 3; rw [hi.1]; omega
  | ⟨1, _⟩ => show win0_3.index t 1 * 256 + 1 * (y 1).val = t.val % 3 * 256 + (y 1).val; rw [hi.2.1]; omega
  | ⟨2, _⟩ => show win0_3.index t 2 * 768 + 1 * (y 2).val = (y 2).val; rw [hi.2.2]; omega

/-! ## What the blocks read -/

/-- The character-target block reads the character map at the pixel. -/
theorem b2_at (t : Fin cfg0.N) (y : S1x256x768.Idx) :
    b2 m c t y = m ((c : Thread nD τ).loc main_arg1) (pix t y) := by
  show iblk m c 2 t y = _
  unfold iblk
  rw [View.read_apply]
  show V m c main_arg1 (((cfg0.win 2).blk t).view.emb y) = _
  rw [emb2, V_main_arg1]

/-- The affinity-target block reads the affinity map at the pixel. -/
theorem b3_at (t : Fin cfg0.N) (y : S1x256x768.Idx) :
    b3 m c t y = m ((c : Thread nD τ).loc main_arg2) (pix t y) := by
  show iblk m c 3 t y = _
  unfold iblk
  rw [View.read_apply]
  show V m c main_arg2 (((cfg0.win 3).blk t).view.emb y) = _
  rw [emb3, V_main_arg2]

/-- The character-prediction block reads channel 0 of the predictions at the pixel. -/
theorem b0_at (t : Fin cfg0.N) (y : S1x256x768.Idx) :
    b0 m c t y = chan (m ((c : Thread nD τ).loc main_arg0)) 0 (pix t y) := by
  show iblk m c 0 t y = _
  unfold iblk
  rw [View.read_apply]
  show V m c main_v1 (((cfg0.win 0).blk t).view.emb y) = _
  rw [emb0, plane0_eq]
  exact plane_at (m ((c : Thread nD τ).loc main_arg0)) 0 ![0, 0, 0, 0] rfl _ (pix t y)

/-- The affinity-prediction block reads channel 1 of the predictions at the pixel. -/
theorem b1_at (t : Fin cfg0.N) (y : S1x256x768.Idx) :
    b1 m c t y = chan (m ((c : Thread nD τ).loc main_arg0)) 1 (pix t y) := by
  show iblk m c 1 t y = _
  unfold iblk
  rw [View.read_apply]
  show V m c main_v3 (((cfg0.win 1).blk t).view.emb y) = _
  rw [emb1, plane1_eq]
  exact plane_at (m ((c : Thread nD τ).loc main_arg0)) 1 ![0, 0, 0, 1] rfl _ (pix t y)

/-! ## From points and positions to pixels -/

/-- A sum over the points of sums over a block, of a function of the pixel, is the sum over all pixels. -/
theorem sum_points (g : S16x768x768.Idx → Ideal .f32) :
    ∑ t : Fin cfg0.N, ∑ y : S1x256x768.Idx, g (pix t y) = ∑ q : S16x768x768.Idx, g q := by
  rw [← Cert.Index.sum_blocks g]
  exact Fintype.sum_equiv (finCongr N_0) _ _ (fun t => rfl)

/-! ## The six totals -/

theorem total_row0 : ∑ t : Fin cfg0.N, share m c t 0
    = posTotal (m ((c : Thread nD τ).loc main_arg0)) 0 (m ((c : Thread nD τ).loc main_arg1)) := by
  have e : ∀ t : Fin cfg0.N, share m c t 0 = ∑ y : S1x256x768.Idx,
      posTerm (chan (m ((c : Thread nD τ).loc main_arg0)) 0 (pix t y)) (m ((c : Thread nD τ).loc main_arg1) (pix t y)) := fun t => by
    unfold share pointDelta
    rw [delta_row0]
    exact Finset.sum_congr rfl fun y _ => by rw [b0_at, b2_at]
  rw [Finset.sum_congr rfl fun t _ => e t]
  exact sum_points (fun q => posTerm (chan (m ((c : Thread nD τ).loc main_arg0)) 0 q) (m ((c : Thread nD τ).loc main_arg1) q))

theorem total_row1 : ∑ t : Fin cfg0.N, share m c t 1
    = negTotal (m ((c : Thread nD τ).loc main_arg0)) 0 (m ((c : Thread nD τ).loc main_arg1)) := by
  have e : ∀ t : Fin cfg0.N, share m c t 1 = ∑ y : S1x256x768.Idx,
      negTerm (chan (m ((c : Thread nD τ).loc main_arg0)) 0 (pix t y)) (m ((c : Thread nD τ).loc main_arg1) (pix t y)) := fun t => by
    unfold share pointDelta
    rw [delta_row1]
    exact Finset.sum_congr rfl fun y _ => by rw [b0_at, b2_at]
  rw [Finset.sum_congr rfl fun t _ => e t]
  exact sum_points (fun q => negTerm (chan (m ((c : Thread nD τ).loc main_arg0)) 0 q) (m ((c : Thread nD τ).loc main_arg1) q))

theorem total_row2 : ∑ t : Fin cfg0.N, share m c t 2 = cntTotal (m ((c : Thread nD τ).loc main_arg1)) := by
  have e : ∀ t : Fin cfg0.N, share m c t 2 = ∑ y : S1x256x768.Idx, cntTerm (m ((c : Thread nD τ).loc main_arg1) (pix t y)) := fun t => by
    unfold share pointDelta
    rw [delta_row2]
    exact Finset.sum_congr rfl fun y _ => by rw [b2_at]
  rw [Finset.sum_congr rfl fun t _ => e t]
  exact sum_points (fun q => cntTerm (m ((c : Thread nD τ).loc main_arg1) q))

theorem total_row3 : ∑ t : Fin cfg0.N, share m c t 3
    = posTotal (m ((c : Thread nD τ).loc main_arg0)) 1 (m ((c : Thread nD τ).loc main_arg2)) := by
  have e : ∀ t : Fin cfg0.N, share m c t 3 = ∑ y : S1x256x768.Idx,
      posTerm (chan (m ((c : Thread nD τ).loc main_arg0)) 1 (pix t y)) (m ((c : Thread nD τ).loc main_arg2) (pix t y)) := fun t => by
    unfold share pointDelta
    rw [delta_row3]
    exact Finset.sum_congr rfl fun y _ => by rw [b1_at, b3_at]
  rw [Finset.sum_congr rfl fun t _ => e t]
  exact sum_points (fun q => posTerm (chan (m ((c : Thread nD τ).loc main_arg0)) 1 q) (m ((c : Thread nD τ).loc main_arg2) q))

theorem total_row4 : ∑ t : Fin cfg0.N, share m c t 4
    = negTotal (m ((c : Thread nD τ).loc main_arg0)) 1 (m ((c : Thread nD τ).loc main_arg2)) := by
  have e : ∀ t : Fin cfg0.N, share m c t 4 = ∑ y : S1x256x768.Idx,
      negTerm (chan (m ((c : Thread nD τ).loc main_arg0)) 1 (pix t y)) (m ((c : Thread nD τ).loc main_arg2) (pix t y)) := fun t => by
    unfold share pointDelta
    rw [delta_row4]
    exact Finset.sum_congr rfl fun y _ => by rw [b1_at, b3_at]
  rw [Finset.sum_congr rfl fun t _ => e t]
  exact sum_points (fun q => negTerm (chan (m ((c : Thread nD τ).loc main_arg0)) 1 q) (m ((c : Thread nD τ).loc main_arg2) q))

theorem total_row5 : ∑ t : Fin cfg0.N, share m c t 5 = cntTotal (m ((c : Thread nD τ).loc main_arg2)) := by
  have e : ∀ t : Fin cfg0.N, share m c t 5 = ∑ y : S1x256x768.Idx, cntTerm (m ((c : Thread nD τ).loc main_arg2) (pix t y)) := fun t => by
    unfold share pointDelta
    rw [delta_row5]
    exact Finset.sum_congr rfl fun y _ => by rw [b3_at]
  rw [Finset.sum_congr rfl fun t _ => e t]
  exact sum_points (fun q => cntTerm (m ((c : Thread nD τ).loc main_arg2) q))

end Cert.KernelIdeal.Points

end
-- ==== Proof.Final.lean ====
/-
  THE KERNEL'S RESULT.

  * The accumulator's window never moves and is written back once, after the last point: the result array of the region
    is the accumulator as the last point (number 47) leaves it — its one block is the whole 8 × 128 array.
  * After the region the host picks entries (0,0) … (5,0) of that array — a 1 × 1 slice viewed as a scalar, six times — and
    combines them: `tailFn`, the same six scalar operations the specification's `combine` is made of.
  * Entry (k, 0) after the last point is the sum over all points of row k's share, which is the specification's total
    number k. So the kernel's result is the specification's loss of the three argument arrays.
-/
import proofs.«163600_j38293928411859_1_alg».proof.Proof.Blocks
import Idealize.ShloMosaic.Lib.Pipeline.Value
import Idealize.ShloMosaic.Lib.StableHlo.Run

noncomputable section

namespace Cert.KernelIdeal.Points

open Cert.KernelIdeal Cert.KernelIdeal.Gen Cert.KernelIdeal.Body
open Idealize.ShloMosaic Idealize.ShloMosaic.TcCoe Idealize.SL.Sem Idealize.ShloMosaic.ValueIdx
open Idealize.ShloMosaic.StableHlo
open Idealize.ShloMosaic.Pipeline (Dat)
open Cert.Spec

/-! ## The host's scalar tail -/

/-- Entry (k, 0) of an 8 × 128 array, as the host takes it: the 1 × 1 slice at row k, lane 0, viewed as a scalar. -/
theorem pick (A : FVec Ideal S8x128 .f32) (k : Fin 8) (off : Fin 2 → Nat) (hoff : off = ![k.val, 0])
    (hs : S8x128.Slices off S1x1) (i : S_.Idx) :
    shapeCast S_ (extractStridedSlice S1x1 off A hs) shapeCasts_S1x1_S_ i = A (ix2 k 0) := by
  subst hoff
  rw [shapeCast_apply _ shapeCasts_S1x1_S_ i (ix2 (0 : Fin 1) (0 : Fin 1)) (by
    rw [Shape.rowMajor_val_two]
    have h1 : S_.numel = 1 := by decide
    have h := (S_.rowMajor i).isLt
    show 0 * 1 + 0 = (S_.rowMajor i).val
    omega)]
  exact extractStridedSlice_apply _ A hs _ (ix2 k 0) (fun a => match a with
    | ⟨0, _⟩ => by show k.val = k.val + 0; omega
    | ⟨1, _⟩ => by show 0 = 0 + 0; omega)

/-- What the host computes from the region's result array `A`. -/
def tailFn (A : FVec Ideal S8x128 .f32) : FVec Ideal S_ .f32 :=
  mulf
    (addf
      (mulf
        (Host.divf
          (addf (shapeCast S_ (extractStridedSlice S1x1 ![0, 0] A slices_S8x128_S1x1_0_0) shapeCasts_S1x1_S_)
            (shapeCast S_ (extractStridedSlice S1x1 ![1, 0] A slices_S8x128_S1x1_1_0) shapeCasts_S1x1_S_))
          (addf (shapeCast S_ (extractStridedSlice S1x1 ![2, 0] A slices_S8x128_S1x1_2_0) shapeCasts_S1x1_S_)
            (constant (F := Ideal) S_ .f32 0x4B100000#32)))
        (constant (F := Ideal) S_ .f32 0x40000000#32))
      (Host.divf
        (addf (shapeCast S_ (extractStridedSlice S1x1 ![3, 0] A slices_S8x128_S1x1_3_0) shapeCasts_S1x1_S_)
          (shapeCast S_ (extractStridedSlice S1x1 ![4, 0] A slices_S8x128_S1x1_4_0) shapeCasts_S1x1_S_))
        (addf (shapeCast S_ (extractStridedSlice S1x1 ![5, 0] A slices_S8x128_S1x1_5_0) shapeCasts_S1x1_S_)
          (constant (F := Ideal) S_ .f32 0x4B100000#32))))
    (constant (F := Ideal) S_ .f32 0x42C80000#32)

/-- The tail combines entries (0,0) … (5,0) as the specification combines its six totals. -/
theorem tailFn_at (A : FVec Ideal S8x128 .f32) (i : S_.Idx) :
    tailFn A i = combine (A (ix2 0 0)) (A (ix2 1 0)) (A (ix2 2 0)) (A (ix2 3 0)) (A (ix2 4 0)) (A (ix2 5 0)) := by
  have p0 := pick A 0 ![0, 0] rfl slices_S8x128_S1x1_0_0 i
  have p1 := pick A 1 ![1, 0] rfl slices_S8x128_S1x1_1_0 i
  have p2 := pick A 2 ![2, 0] rfl slices_S8x128_S1x1_2_0 i
  have p3 := pick A 3 ![3, 0] rfl slices_S8x128_S1x1_3_0 i
  have p4 := pick A 4 ![4, 0] rfl slices_S8x128_S1x1_4_0 i
  have p5 := pick A 5 ![5, 0] rfl slices_S8x128_S1x1_5_0 i
  show FloatOps.mulf
    (FloatOps.addf
      (FloatOps.mulf
        (FloatOps.hostDivf
          (FloatOps.addf (shapeCast S_ (extractStridedSlice S1x1 ![0, 0] A slices_S8x128_S1x1_0_0) shapeCasts_S1x1_S_ i)
            (shapeCast S_ (extractStridedSlice S1x1 ![1, 0] A slices_S8x128_S1x1_1_0) shapeCasts_S1x1_S_ i))
          (FloatOps.addf (shapeCast S_ (extractStridedSlice S1x1 ![2, 0] A slices_S8x128_S1x1_2_0) shapeCasts_S1x1_S_ i)
            (FloatOps.ofBits .f32 0x4B100000#32)))
        (FloatOps.ofBits .f32 0x40000000#32))
      (FloatOps.hostDivf
        (FloatOps.addf (shapeCast S_ (extractStridedSlice S1x1 ![3, 0] A slices_S8x128_S1x1_3_0) shapeCasts_S1x1_S_ i)
          (shapeCast S_ (extractStridedSlice S1x1 ![4, 0] A slices_S8x128_S1x1_4_0) shapeCasts_S1x1_S_ i))
        (FloatOps.addf (shapeCast S_ (extractStridedSlice S1x1 ![5, 0] A slices_S8x128_S1x1_5_0) shapeCasts_S1x1_S_ i)
          (FloatOps.ofBits .f32 0x4B100000#32))))
    (FloatOps.ofBits .f32 0x42C80000#32) = _
  rw [p0, p1, p2, p3, p4, p5]
  rfl

set_option maxHeartbeats 4000000 in
/-- The 25 host operations after the region, run on ANY contents `W` of the buffers, leave `tailFn` of what `W` holds
    in the region's result array (one operation at a time; nothing here depends on what `W` is). -/
theorem tail_gen (W : Valuation τ sig (Elt Ideal)) :
    StableHlo.after (List.flatten [hostOps1]) W (Proc.devRef .tc main_v25) = tailFn (W (Proc.devRef .tc main_v4)) := by
  rw [List.flatten_cons, List.flatten_nil, List.append_nil]
  after_results
  rfl

variable (m : (ℓ : Loc nD τ sig) → Buf (Elt Ideal) ℓ) (c : Dev nD)

/-! ## The region's result array -/

theorem lastLt : 47 < cfg0.N := lt_of_lt_of_eq (by decide : 47 < 48) N_0.symm

/-- The accumulator as the last point leaves it. -/
abbrev accLast : Buf (Elt Ideal) ((c : Thread nD τ).loc main_v4) := outsAt0 m c 47 lastLt

/-- The accumulator's window: block index 0 on both axes, the whole 8 × 128 extent, at every point — decided over the
    grid. -/
theorem out_facts : ∀ t : Fin cfg0.N,
    win0_4.index t 0 * win0_4.size 0 = 0 ∧ win0_4.index t 1 * win0_4.size 1 = 0
    ∧ win0_4.xsize (grid0.coords t) 0 = 8 ∧ win0_4.xsize (grid0.coords t) 1 = 128 :=
  (by decide +kernel : ∀ t : Fin grid0.N,
    win0_4.index t 0 * win0_4.size 0 = 0 ∧ win0_4.index t 1 * win0_4.size 1 = 0
    ∧ win0_4.xsize (grid0.coords t) 0 = 8 ∧ win0_4.xsize (grid0.coords t) 1 = 128)

/-- The one write-back, after the last point, writes the accumulator: its block is the whole array. -/
theorem flushed_eq (t : Fin cfg0.N) (hf : (cfg0.win 4).flush t = true) :
    (dats m 0 c).flushed 4 t = ((cfg0.win 4).blk t).view.read (Elt Ideal) (accLast m c) := by
  have hN : cfg0.N = 48 := N_0
  have h47 : t.val = 47 := by have := (flush0_4 t).mp hf; have := t.isLt; omega
  have hlast : ∀ (n : ℕ) (h : n < cfg0.N), n = 47 → outsAt0 m c n h = accLast m c := fun n h e => by subst e; rfl
  have hf4 := out_facts t
  show (cfg0.win 4).cut (grid0.coords t) ((dats m 0 c).after 4 t) = _
  rw [after0_4, hlast t.val t.isLt h47]
  have hz' : (fun a => win0_4.index t a * main_v4.ty.shape.size a) = fun _ => 0 := funext fun a => match a with
    | ⟨0, _⟩ => hf4.1
    | ⟨1, _⟩ => hf4.2.1
  exact (Memref.read_access_unit_zero (Elt Ideal) main_v4 hz' (fun a => by rw [congrFun hz' a]; simp) (accLast m c)).symm

/-- So the region's result array ends holding the accumulator after the last point. -/
theorem final_acc : (dats m 0 c).arrAt 4 cfg0.N = accLast m c :=
  (dats m 0 c).arrAt_eq_of_cover 4 (accLast m c) (flushed_eq m c) fun i =>
    ⟨⟨47, lastLt⟩, (flush0_4 ⟨47, lastLt⟩).mpr rfl, by
      have hf4 := out_facts ⟨47, lastLt⟩
      show i ∈ ((View.whole main_v4).slice (win0_4.rect ⟨47, lastLt⟩)).set
      rw [View.set_slice_whole, Rect.mem_set_unit]
      intro a
      have h0 : (i 0 : Nat) < 8 := (i 0).isLt
      have h1 : (i 1 : Nat) < 128 := (i 1).isLt
      match a with
      | ⟨0, _⟩ =>
        show win0_4.index ⟨47, lastLt⟩ 0 * win0_4.size 0 ≤ (i 0 : Nat)
          ∧ (i 0 : Nat) < win0_4.index ⟨47, lastLt⟩ 0 * win0_4.size 0 + win0_4.xsize (grid0.coords ⟨47, lastLt⟩) 0
        rw [hf4.1, hf4.2.2.1]; omega
      | ⟨1, _⟩ =>
        show win0_4.index ⟨47, lastLt⟩ 1 * win0_4.size 1 ≤ (i 1 : Nat)
          ∧ (i 1 : Nat) < win0_4.index ⟨47, lastLt⟩ 1 * win0_4.size 1 + win0_4.xsize (grid0.coords ⟨47, lastLt⟩) 1
        rw [hf4.2.1, hf4.2.2.2]; omega⟩

/-! ## The result -/

/-- After the host's tail the result buffer holds `tailFn` of the accumulator after the last point. -/
theorem tail_eq : Pipeline.afterTail₀ cfgs (dats m) 0 (V0 m) [hostOps1] c main_v25 = tailFn (accLast m c) := by
  unfold Pipeline.afterTail₀
  exact (tail_gen _).trans
    (congrArg tailFn ((Pipeline.withArrays_arr spec0 launch0.win.arr_inj c _ _ 4).trans (final_acc m c)))

/-- THE KERNEL'S RESULT is the specification's loss of the three argument arrays. -/
theorem result_eq (i : S_.Idx) :
    Pipeline.afterTail₀ cfgs (dats m) 0 (V0 m) [hostOps1] c main_v25 i
      = loss (m ((c : Thread nD τ).loc main_arg0)) (m ((c : Thread nD τ).loc main_arg1)) (m ((c : Thread nD τ).loc main_arg2)) := by
  have e0 : accLast m c (ix2 0 0) = _ := (outs_last m c lastLt 0 0).trans (total_row0 m c)
  have e1 : accLast m c (ix2 1 0) = _ := (outs_last m c lastLt 1 0).trans (total_row1 m c)
  have e2 : accLast m c (ix2 2 0) = _ := (outs_last m c lastLt 2 0).trans (total_row2 m c)
  have e3 : accLast m c (ix2 3 0) = _ := (outs_last m c lastLt 3 0).trans (total_row3 m c)
  have e4 : accLast m c (ix2 4 0) = _ := (outs_last m c lastLt 4 0).trans (total_row4 m c)
  have e5 : accLast m c (ix2 5 0) = _ := (outs_last m c lastLt 5 0).trans (total_row5 m c)
  rw [tail_eq, tailFn_at, e0, e1, e2, e3, e4, e5]
  rfl

/-- THE RUN, read: every weakly fair execution of the idealized kernel terminates with the result buffer at the loss
    and the three arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v25)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v25 (Pipeline.mem_restRefs_of main_v25 (by decide) (by decide))).trans (funext fun i => result_eq m c i),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c)))⟩)
    (run_main m ρ)

end Cert.KernelIdeal.Points

end
-- ==== Proof.lean ====
/-
  A masked squared-error loss over 16 images of 768 × 768 pixels with two prediction channels (character, affinity),
  computed two ways, and the proof that at the ideal (extended-real) instance the two results are equal.

  THE LOSS. For a channel with predictions `p` and target map `t`: the sum over all 9437184 pixels of `(p - t)²` where
  `t ≥ 0.1`, plus the same sum where `t ≤ 0`, divided by (the number of pixels with `t ≥ 0.1`, plus 9437184). The result is
  (character loss · 2 + affinity loss) · 100. `Proof/Spec.lean` states it as one function `loss` of the three argument arrays.

  THE KERNEL runs over a 16 × 3 grid. At each point it takes one 256-row band of one image from each of four arrays (the two
  channel planes the host slices out of the predictions, and the two target maps), reduces the band to six scalars, and
  adds them into rows 0 … 5 of an 8 × 128 accumulator that stays in place over the whole grid (zeroed at the first point,
  written back after the last); the host then reads entries (0,0) … (5,0) and combines them.
    Proof/Body.lean    one point's update of the accumulator, and the update read at an entry
    Proof/Points.lean  the accumulator after point n, by induction on n; the host-made channel planes
    Proof/Blocks.lean  a block's positions as pixels; the sum over all points of a row's share is a pixel total
    Proof/Final.lean   the last point's block is the result array; the host's scalar tail; the kernel's run
  THE REFERENCE flattens the arrays to 9437184 positions and takes six flat sums — the two counts as 32-bit INTEGER sums
  converted to a float afterwards.
    Proof/RefSide.lean every stage read at a flat position; flat sums as pixel totals; the integer counts
  WHAT JOINS THEM: a sum over flat positions, and a sum over grid points of sums over a band, both run through every
  pixel exactly once (Proof/Index.lean), addition of extended reals being commutative and associative — no finiteness of
  the inputs is used; and fewer than 2³¹ bits, each 0 or 1, added in 32 bits cannot wrap, so converting the integer
  count is the same as adding converted bits (Proof/SumLaws.lean). Every float literal occurs with the same bit pattern in
  both programs and is never evaluated, except the zero the sums start from.

  The three frame claims are the generated frame runs (the reference's: its generated run with the result dropped);
  the idealization rewrote nothing, so `preserves` is `True`.
-/
import proofs.«163600_j38293928411859_1_alg».proof.Defs
import proofs.«163600_j38293928411859_1_alg».proof.Proof.Gen.Kernel
import proofs.«163600_j38293928411859_1_alg».proof.Proof.Gen.Kernel.Skeleton
import proofs.«163600_j38293928411859_1_alg».proof.Proof.Gen.Kernel.Launch
import proofs.«163600_j38293928411859_1_alg».proof.Proof.Gen.Kernel.Points
import proofs.«163600_j38293928411859_1_alg».proof.Proof.Gen.Kernel.Frame
import proofs.«163600_j38293928411859_1_alg».proof.Proof.Gen.KernelIdeal
import proofs.«163600_j38293928411859_1_alg».proof.Proof.Gen.KernelIdeal.Skeleton
import proofs.«163600_j38293928411859_1_alg».proof.Proof.Gen.KernelIdeal.Launch
import proofs.«163600_j38293928411859_1_alg».proof.Proof.Gen.KernelIdeal.Points
import proofs.«163600_j38293928411859_1_alg».proof.Proof.Gen.KernelIdeal.Frame
import proofs.«163600_j38293928411859_1_alg».proof.Proof.Gen.ReferenceIdeal
import proofs.«163600_j38293928411859_1_alg».proof.Proof.Gen.ReferenceIdeal.Run
import proofs.«163600_j38293928411859_1_alg».proof.Proof.Gen.ReferenceIdeal.Read
import proofs.«163600_j38293928411859_1_alg».proof.Proof.Gen.Pre_finite_inputs
import proofs.«163600_j38293928411859_1_alg».proof.Proof.RefSide
import proofs.«163600_j38293928411859_1_alg».proof.Proof.Final
import Idealize.ShloMosaic.Adequacy
import Idealize.ShloMosaic.Init

noncomputable section

namespace Cert.Proof

open Idealize.ShloMosaic Idealize.SL.Sem

/-- The kernel as printed runs and leaves its arguments unchanged: its generated frame run. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the idealized kernel ends with its result at the loss of its
    arguments, the idealized reference with its result at the loss of its own: the same extended real. -/
theorem algebraic : Cert.algebraic_KernelIdeal_ReferenceIdeal := by
  intro m ρ m' ρ' _ hagree
  refine ⟨fun c => fun _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Points.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq]
  funext i
  rw [Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
